-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S2048x512 : Shape := ⟨2, ![2048, 512]⟩
abbrev S1x512 : Shape := ⟨2, ![1, 512]⟩
abbrev S512x1000 : Shape := ⟨2, ![512, 1000]⟩
abbrev S1x1000 : Shape := ⟨2, ![1, 1000]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1x512 : S_.BroadcastsInDim S1x512 (![] : Fin 0 → Fin S1x512.rank)
  reducesTo_S1x512_S_d0_1 : S1x512.ReducesTo [0, 1] S_
  bcast_S_S512x1000 : S_.BroadcastsInDim S512x1000 (![] : Fin 0 → Fin S512x1000.rank)
  reducesTo_S512x1000_S_d0_1 : S512x1000.ReducesTo [0, 1] S_
  bcast_S_S1x1000 : S_.BroadcastsInDim S1x1000 (![] : Fin 0 → Fin S1x1000.rank)
  reducesTo_S1x1000_S_d0_1 : S1x1000.ReducesTo [0, 1] S_

variable [Facts]

def fn_part1 {F : FTy → Type} [FloatOps F] (main_arg4 : FVec F S1x512 .f32) (main_arg5 : FVec F S512x1000 .f32) (main_arg6 : FVec F S1x1000 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x1000 .f32 := Host.absf main_arg5
  let main_cst_8 : FVec F S_ .f32 := constant S_ .f32 0x7F800000#32
  let main_v25 : FVec F S512x1000 .f32 := broadcastInDim S512x1000 ![] bcast_S_S512x1000 main_cst_8
  let main_v26 : IVec S512x1000 1 := cmpf .olt main_v24 main_v25
  let main_c_9 : IVec S_ 1 := constantI S_ 1 1#1
  let main_v27 : IVec S_ 1 := (fun x v => Host.reduce IntOp.andi x v reducesTo_S512x1000_S_d0_1 h_S_) main_v26 main_c_9
  let main_v28 : IVec S_ 1 := andi main_v23 main_v27
  let main_v29 : FVec F S1x1000 .f32 := Host.absf main_arg6
  let main_cst_10 : FVec F S_ .f32 := constant S_ .f32 0x7F800000#32
  let main_v30 : FVec F S1x1000 .f32 := broadcastInDim S1x1000 ![] bcast_S_S1x1000 main_cst_10
  let main_v31 : IVec S1x1000 1 := cmpf .olt main_v29 main_v30
  let main_c_11 : IVec S_ 1 := constantI S_ 1 1#1
  let main_v32 : IVec S_ 1 := (fun x v => Host.reduce IntOp.andi x v reducesTo_S1x1000_S_d0_1 h_S_) main_v31 main_c_11
  let main_v33 : IVec S_ 1 := andi main_v28 main_v32
  main_v33

def fn {F : FTy → Type} [FloatOps F] (main_arg0 : FVec F S128x2048x7x7 .f32) (main_arg1 : FVec F S2048x512 .f32) (main_arg2 : FVec F S1x512 .f32) (main_arg3 : FVec F S1x512 .f32) (main_arg4 : FVec F S1x512 .f32) (main_arg5 : FVec F S512x1000 .f32) (main_arg6 : FVec F S1x1000 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_v13 main_v16
-- ==== Kernel.lean ====
abbrev S128x2048x7x7 : Shape := ⟨4, ![128, 2048, 7, 7]⟩
abbrev S2048x512 : Shape := ⟨2, ![2048, 512]⟩
abbrev S1x512 : Shape := ⟨2, ![1, 512]⟩
abbrev S512x1000 : Shape := ⟨2, ![512, 1000]⟩
abbrev S1x1000 : Shape := ⟨2, ![1, 1000]⟩
abbrev S7x7x128x2048 : Shape := ⟨4, ![7, 7, 128, 2048]⟩
abbrev S49x128x2048 : Shape := ⟨3, ![49, 128, 2048]⟩
abbrev S1000x512 : Shape := ⟨2, ![1000, 512]⟩
abbrev S128x1000 : Shape := ⟨2, ![128, 1000]⟩
abbrev S49x32x512 : Shape := ⟨3, ![49, 32, 512]⟩
abbrev S512x512 : Shape := ⟨2, ![512, 512]⟩
abbrev S32x1000 : Shape := ⟨2, ![32, 1000]⟩
abbrev S32x512 : Shape := ⟨2, ![32, 512]⟩
abbrev S512x32 : Shape := ⟨2, ![512, 32]⟩
abbrev S1000x32 : Shape := ⟨2, ![1000, 32]⟩

abbrev nBuf : Space → Nat
  | .hbm => 11
  | .vmem => 19
  | .smem => 0
  | _ => 0

abbrev bufTy : (tb : Table) → Fin (tcTables nBuf tb) → BufTy
  | .hbm, ⟨0, _⟩ => ⟨S128x2048x7x7, .f32⟩
  | .hbm, ⟨1, _⟩ => ⟨S2048x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512x1000, .f32⟩
  | .hbm, ⟨6, _⟩ => ⟨S1x1000, .f32⟩
  | .hbm, ⟨7, _⟩ => ⟨S7x7x128x2048, .f32⟩
  | .hbm, ⟨8, _⟩ => ⟨S49x128x2048, .f32⟩
  | .hbm, ⟨9, _⟩ => ⟨S1000x512, .f32⟩
  | .hbm, ⟨10, _⟩ => ⟨S128x1000, .f32⟩
  | .local _ .vmem, ⟨0, _⟩ => ⟨S49x32x512, .f32⟩
  | .local _ .vmem, ⟨1, _⟩ => ⟨S49x32x512, .f32⟩
  | .local _ .vmem, ⟨2, _⟩ => ⟨S49x32x512, .f32⟩
  | .local _ .vmem, ⟨3, _⟩ => ⟨S49x32x512, .f32⟩
  | .local _ .vmem, ⟨4, _⟩ => ⟨S49x32x512, .f32⟩
  | .local _ .vmem, ⟨5, _⟩ => ⟨S49x32x512, .f32⟩
  | .local _ .vmem, ⟨6, _⟩ => ⟨S49x32x512, .f32⟩
  | .local _ .vmem, ⟨7, _⟩ => ⟨S49x32x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1000x512, .f32⟩
  | .local _ .vmem, ⟨16, _⟩ => ⟨S1x1000, .f32⟩
  | .local _ .vmem, ⟨17, _⟩ => ⟨S32x1000, .f32⟩
  | .local _ .vmem, ⟨18, _⟩ => ⟨S32x1000, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S49x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S49x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S49x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1000x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x1000 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S128x2048x7x7_S7x7x128x2048_2_3_0_1 : S128x2048x7x7.Transposes [2, 3, 0, 1] S7x7x128x2048
  shapeCasts_S7x7x128x2048_S49x128x2048 : S7x7x128x2048.ShapeCasts S49x128x2048
  transposes_S512x1000_S1000x512_1_0 : S512x1000.Transposes [1, 0] S1000x512
  inb_S49x32x512_S49x32x512_0_0_0 : ∀ a, (![0, 0, 0] : Fin 3 → Nat) a + S49x32x512.size a ≤ S49x32x512.size a
  h_S49x32x512 : 0 < S49x32x512.numel
  shapeCasts_S49x32x512_S49x32x512 : S49x32x512.ShapeCasts S49x32x512
  reduces_S49x32x512_S32x512 : S49x32x512.Reduces [0] S32x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S32x512 : S1x512.Broadcasts S32x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  transposes_S32x512_p1_0_S512x32 : S32x512.Transposes [1, 0] S512x32
  transposes_S1000x32_p1_0_S32x1000 : S1000x32.Transposes [1, 0] S32x1000
  inb_S1x1000_S1x1000_0_0 : ∀ a, (![0, 0] : Fin 2 → Nat) a + S1x1000.size a ≤ S1x1000.size a
  h_S1x1000 : 0 < S1x1000.numel
  broadcasts_S1x1000_S32x1000 : S1x1000.Broadcasts S32x1000
  inb_S32x1000_S32x1000_0_0 : ∀ a, (![0, 0] : Fin 2 → Nat) a + S32x1000.size a ≤ S32x1000.size a
  h_S32x1000 : 0 < S32x1000.numel
  dot_S32x512_S512x512_S32x512_1_0_0_1_n_n_wf : DotDims.WF S32x512 S512x512 S32x512 [1] [0] [0] [1] [] []
  dot_S1000x512_S512x32_S1000x32_1_0_0_1_n_n_wf : DotDims.WF S1000x512 S512x32 S1000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x32x512.size a ≤ S49x128x2048.size a
  hwx0_0 : ∀ i : grid0.Coords, EltTy.bits .f32 = 32 ∨ (Rect.block (s := S49x128x2048) S49x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S49x32x512.size a ≤ S49x128x2048.size a
  hwx0_1 : ∀ i : grid0.Coords, EltTy.bits .f32 = 32 ∨ (Rect.block (s := S49x128x2048) S49x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S49x32x512.size a ≤ S49x128x2048.size a
  hwx0_2 : ∀ i : grid0.Coords, EltTy.bits .f32 = 32 ∨ (Rect.block (s := S49x128x2048) S49x32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S49x32x512.size a ≤ S49x128x2048.size a
  hwx0_3 : ∀ i : grid0.Coords, EltTy.bits .f32 = 32 ∨ (Rect.block (s := S49x128x2048) S49x32x512.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x512.size a
  hwx0_4 : ∀ i : grid0.Coords, EltTy.bits .f32 = 32 ∨ (Rect.block (s := S2048x512) S512x512.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S2048x512.size a
  hwx0_5 : ∀ i : grid0.Coords, EltTy.bits .f32 = 32 ∨ (Rect.block (s := S2048x512) S512x512.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S2048x512.size a
  hwx0_6 : ∀ i : grid0.Coords, EltTy.bits .f32 = 32 ∨ (Rect.block (s := S2048x512) S512x512.size (cc0_transform_6 i) (hinb0_6 i)).WholeWords (EltTy.packing .f32)
  hstage0_7 : ∀ j, (stage0_7 j).IsWhole
  nbuf0_7 : grid0.bufCount reads0_7 false = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S2048x512.size a
  hwx0_7 : ∀ i : grid0.Coords, EltTy.bits .f32 = 32 ∨ (Rect.block (s := S2048x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1000x512.size a ≤ S1000x512.size a
  hwx0_11 : ∀ i : grid0.Coords, EltTy.bits .f32 = 32 ∨ (Rect.block (s := S1000x512) S1000x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1000.size a ≤ S1x1000.size a
  hwx0_12 : ∀ i : grid0.Coords, EltTy.bits .f32 = 32 ∨ (Rect.block (s := S1x1000) S1x1000.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x1000.size a ≤ S128x1000.size a
  hwx0_13 : ∀ i : grid0.Coords, EltTy.bits .f32 = 32 ∨ (Rect.block (s := S128x1000) S32x1000.size (cc0_transform_13 i) (hinb0_13 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S1000x512_S512x32_S1000x32_1_0_0_1_n_n : DotDims S1000x512 S512x32 S1000x32 where
  lhsContracting := [1]
  rhsContracting := [0]
  lhsNonContracting := [0]
  rhsNonContracting := [1]
  lhsBatch := []
  rhsBatch := []
  wf := dot_S1000x512_S512x32_S1000x32_1_0_0_1_n_n_wf

abbrev win0_0 : Pipeline.Window sig grid0 :=
  Pipeline.Window.ofSpec (Memref.whole main_call0_v1) S49x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S49x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S49x32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S49x32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x512.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S512x512.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S512x512.size cc0_transform_7 reads0_7 false false 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v2) S1000x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg6) S1x1000.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S32x1000.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S2048x512 : Shape := ⟨2, ![2048, 512]⟩
abbrev S1x512 : Shape := ⟨2, ![1, 512]⟩
abbrev S512x1000 : Shape := ⟨2, ![512, 1000]⟩
abbrev S1x1000 : Shape := ⟨2, ![1, 1000]⟩
abbrev S128x2048x49 : Shape := ⟨3, ![128, 2048, 49]⟩
abbrev S128x2048 : Shape := ⟨2, ![128, 2048]⟩
abbrev S128x128x49 : Shape := ⟨3, ![128, 128, 49]⟩
abbrev S128x128 : Shape := ⟨2, ![128, 128]⟩
abbrev S_ : Shape := ⟨0, ![]⟩
abbrev S512x1024 : Shape := ⟨2, ![512, 1024]⟩
abbrev S1x1024 : Shape := ⟨2, ![1, 1024]⟩
abbrev S128x1024 : Shape := ⟨2, ![128, 1024]⟩
abbrev S128x1000 : Shape := ⟨2, ![128, 1000]⟩
abbrev S128x512 : Shape := ⟨2, ![128, 512]⟩

abbrev nBuf : Space → Nat
  | .hbm => 17
  | .vmem => 12
  | .smem => 0
  | _ => 0

abbrev bufTy : (tb : Table) → Fin (tcTables nBuf tb) → BufTy
  | .hbm, ⟨0, _⟩ => ⟨S128x2048x7x7, .f32⟩
  | .hbm, ⟨1, _⟩ => ⟨S2048x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512x1000, .f32⟩
  | .hbm, ⟨6, _⟩ => ⟨S1x1000, .f32⟩
  | .hbm, ⟨7, _⟩ => ⟨S128x2048x49, .f32⟩
  | .hbm, ⟨8, _⟩ => ⟨S128x2048, .f32⟩
  | .hbm, ⟨9, _⟩ => ⟨S_, .i32⟩
  | .hbm, ⟨10, _⟩ => ⟨S_, .f32⟩
  | .hbm, ⟨11, _⟩ => ⟨S512x1024, .f32⟩
  | .hbm, ⟨12, _⟩ => ⟨S_, .i32⟩
  | .hbm, ⟨13, _⟩ => ⟨S_, .f32⟩
  | .hbm, ⟨14, _⟩ => ⟨S1x1024, .f32⟩
  | .hbm, ⟨15, _⟩ => ⟨S128x1024, .f32⟩
  | .hbm, ⟨16, _⟩ => ⟨S128x1000, .f32⟩
  | .local _ .vmem, ⟨0, _⟩ => ⟨S128x128x49, .f32⟩
  | .local _ .vmem, ⟨1, _⟩ => ⟨S128x128x49, .f32⟩
  | .local _ .vmem, ⟨2, _⟩ => ⟨S128x128, .f32⟩
  | .local _ .vmem, ⟨3, _⟩ => ⟨S128x128, .f32⟩
  | .local _ .vmem, ⟨4, _⟩ => ⟨S128x2048, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x1024, .f32⟩
  | .local _ .vmem, ⟨10, _⟩ => ⟨S1x1024, .f32⟩
  | .local _ .vmem, ⟨11, _⟩ => ⟨S128x1024, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_call1_c : Ref sig .tc := ⟨.hbm, 9, rfl⟩
abbrev main_call1_call0_v0 : Ref sig .tc := ⟨.hbm, 10, rfl⟩
abbrev main_call1_v0 : Ref sig .tc := ⟨.hbm, 11, rfl⟩
abbrev main_call1_c_0 : Ref sig .tc := ⟨.hbm, 12, rfl⟩
abbrev main_call1_call1_v0 : Ref sig .tc := ⟨.hbm, 13, rfl⟩
abbrev main_call1_v1 : Ref sig .tc := ⟨.hbm, 14, rfl⟩
abbrev main_call1_v2 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

class Facts₀ : Prop where
  shapeCasts_S128x2048x7x7_S128x2048x49 : S128x2048x7x7.ShapeCasts S128x2048x49
  inb_S128x128x49_S128x128x49_0_0_0 : ∀ a, (![0, 0, 0] : Fin 3 → Nat) a + S128x128x49.size a ≤ S128x128x49.size a
  h_S128x128x49 : 0 < S128x128x49.numel
  shapeCasts_S128x128x49_S128x128x49 : S128x128x49.ShapeCasts S128x128x49
  reduces_S128x128x49_S128x128 : S128x128x49.Reduces [2] S128x128
  inb_S128x128_S128x128_0_0 : ∀ a, (![0, 0] : Fin 2 → Nat) a + S128x128.size a ≤ S128x128.size a
  h_S128x128 : 0 < S128x128.numel
  pads_S512x1000_S512x1024_000_0240 : S512x1000.Pads (![0, 0] : Fin 2 → Nat) ![0, 24] ![0, 0] S512x1024
  h_S_ : 0 < S_.numel
  pads_S1x1000_S1x1024_000_0240 : S1x1000.Pads (![0, 0] : Fin 2 → Nat) ![0, 24] ![0, 0] S1x1024
  slices_S128x1024_S128x1000_0_0 : S128x1024.Slices ![0, 0] S128x1000
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  broadcasts_S1x512_S128x512 : S1x512.Broadcasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S128x2048_S2048x512_S128x512_1_0_0_1_n_n_wf : DotDims.WF S128x2048 S2048x512 S128x512 [1] [0] [0] [1] [] []
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x49.size a ≤ S128x2048x49.size a
  hwx0_0 : ∀ i : grid0.Coords, EltTy.bits .f32 = 32 ∨ (Rect.block (s := S128x2048x49) S128x128x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x2048.size a
  hwx0_1 : ∀ i : grid0.Coords, EltTy.bits .f32 = 32 ∨ (Rect.block (s := S128x2048) S128x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S128x2048.size a
  hwx1_0 : ∀ i : grid1.Coords, EltTy.bits .f32 = 32 ∨ (Rect.block (s := S128x2048) S128x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .f32 = 32 ∨ (Rect.block (s := S512x1024) S512x1024.size (cc1_transform_5 i) (hinb1_5 i)).WholeWords (EltTy.packing .f32)
  hstage1_6 : ∀ j, (stage1_6 j).IsWhole
  nbuf1_6 : grid1.bufCount reads1_6 false = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S128x1024.size a
  hwx1_7 : ∀ i : grid1.Coords, EltTy.bits .f32 = 32 ∨ (Rect.block (s := S128x1024) S128x1024.size (cc1_transform_7 i) (hinb1_7 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_call0_v0) S128x128x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call1_v0) S512x1024.size cc1_transform_5 reads1_5 false false 1 stage1_5 sem1_5
    hrank1 hreads1_5 hinb1_5 nbuf1_5 (Memref.isWhole_whole _) hwx1_5 hstage1_5

abbrev win1_6 : Pipeline.Window sig grid1 :=
  Pipeline.Window.ofSpec (Memref.whole main_call1_v1) S1x1024.size cc1_transform_6 reads1_6 false false 1 stage1_6 sem1_6
    hrank1 hreads1_6 hinb1_6 nbuf1_6 (Memref.isWhole_whole _) hwx1_6 hstage1_6

abbrev win1_7 : Pipeline.Window sig grid1 :=
  Pipeline.Window.ofSpec (Memref.whole main_call1_v2) S128x1024.size cc1_transform_7 reads1_7 true false 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.LibSharedLaunch.lean ====
/-
  A pipelined kernel may be handed ONE array through several input windows (an activation read in four channel
  slices, a weight matrix read in four row slices).  The launch then cannot hold every window's array at the full
  share: the buffer behind a shared array is dealt among the windows on it.  This file states the frame run for
  such a kernel once: the certificate says how the distinct buffers behind the arrays make the proof data's
  arrays at entry, and the run concludes the same post as for distinct arrays — every window's array at what the
  write-backs leave, every other unscoped buffer as the region found it.  The region invariant is the scoped
  buffers that are no staging buffer, at some contents; the generator register is not needed by such a body.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a one-region program whose windows may share arrays.  `hsplit` deals the buffers behind the
    arrays, each whole at the full share at the region-entry contents `V`, among the windows; the proof data's
    invariant is the scoped rest at every point.  Every final state has each window's array at the proof data's
    `arrAt … N` and every unscoped buffer that is no window's array at `V`. -/
theorem θ_run_frame_sharedArrays (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, Hr⟩
      iexact Hr)
    (hout := fun c => by
      rw [hΦ]
      iintro Hr
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The frame of the fused pool / linear / scale-shift / rectifier / classifier kernel, whose one pallas_call hands the
  transposed activation to four input windows (four channel slices of 512) and the first weight matrix to four
  more (its four row slices of 512): the buffers behind those two arrays are dealt in quarters among their windows.
  Per grid point the body loads every input block whole and stores the output block whole; what the output's
  staging buffer then holds is the body's one payload of the thirteen input blocks.  The run is the shared-array
  frame run; read at the argument arrays it is the frame claim, read at the result it names the result array.
-/
import proofs.«179224_g2000702530078706_pallasbulk_22_26_alg».proof.Proof.Gen.Kernel.Launch
import proofs.«179224_g2000702530078706_pallasbulk_22_26_alg».proof.Proof.Gen.Kernel.Skeleton
import proofs.«179224_g2000702530078706_pallasbulk_22_26_alg».proof.Proof.Gen.Kernel.Points
import proofs.«179224_g2000702530078706_pallasbulk_22_26_alg».proof.Proof.LibSharedLaunch
import Idealize.ShloMosaic.Lib.Pipeline.FrameBody
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The TensorCore's buffers after the two transposes and the reshape that precede the region. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the region-entry one and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S49x32x512 := Rect.unit (s := S49x32x512) ![0, 0, 0] S49x32x512.size inb_S49x32x512_S49x32x512_0_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rT : Rect S1000x512 := Rect.unit (s := S1000x512) ![0, 0] S1000x512.size inb_S1000x512_S1000x512_0_0
abbrev rC : Rect S1x1000 := Rect.unit (s := S1x1000) ![0, 0] S1x1000.size inb_S1x1000_S1x1000_0_0
abbrev rO : Rect S32x1000 := Rect.unit (s := S32x1000) ![0, 0] S32x1000.size inb_S32x1000_S32x1000_0_0

/-- The output block after the body, from the thirteen input blocks: its one store, of the body's payload. -/
def outBlock (x0 : Vec F S49x32x512 .f32) (x1 : Vec F S49x32x512 .f32) (x2 : Vec F S49x32x512 .f32) (x3 : Vec F S49x32x512 .f32) (x4 : Vec F S512x512 .f32) (x5 : Vec F S512x512 .f32) (x6 : Vec F S512x512 .f32) (x7 : Vec F S512x512 .f32) (x8 : Vec F S1x512 .f32) (x9 : Vec F S1x512 .f32) (x10 : Vec F S1x512 .f32) (x11 : Vec F S1000x512 .f32) (x12 : Vec F S1x1000 .f32) : Vec F S32x1000 .f32 :=
  View.canon [⟨rO, k0_pay1 (k0_pay2 (View.ld x0 rX) (View.ld x4 rW) (View.ld x1 rX) (View.ld x5 rW) (View.ld x2 rX) (View.ld x6 rW)) (k0_pay3 (View.ld x3 rX)) (View.ld x7 rW) (View.ld x8 rB) (View.ld x9 rB) (View.ld x10 rB) (View.ld x11 rT) (View.ld x12 rC)⟩]

/-- The one store covers the output block. -/
theorem coverOut (p0 : Vec F S32x1000 .f32) (y : S32x1000.Idx) :
    ∃ pc ∈ ([⟨rO, p0⟩] : List (View.Piece (Elt F) S32x1000 .f32)), y ∈ pc.1.set :=
  View.cover_of_tiled [⟨rO, p0⟩] S32x1000.size (by rfl) y

set_option maxHeartbeats 4000000 in
/-- The body on whole staging memrefs, the inputs' at contents `xW` and the output's at anything, runs to the
    continuation holding the inputs' as they were and the output's at `outBlock` of the inputs'. -/
theorem sound_kernel (c : Dev nD) (E : Set ℕ) (i : grid0.Coords) (arg1 : Memref sig .tc .vmem S49x32x512 .f32) (harg1 : arg1.IsWhole) (arg2 : Memref sig .tc .vmem S49x32x512 .f32) (harg2 : arg2.IsWhole) (arg3 : Memref sig .tc .vmem S49x32x512 .f32) (harg3 : arg3.IsWhole) (arg4 : Memref sig .tc .vmem S49x32x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1000x512 .f32) (harg12 : arg12.IsWhole) (arg13 : Memref sig .tc .vmem S1x1000 .f32) (harg13 : arg13.IsWhole) (arg14 : Memref sig .tc .vmem S32x1000 .f32) (harg14 : arg14.IsWhole)
    (x0 : Vec F S49x32x512 .f32) (x1 : Vec F S49x32x512 .f32) (x2 : Vec F S49x32x512 .f32) (x3 : Vec F S49x32x512 .f32) (x4 : Vec F S512x512 .f32) (x5 : Vec F S512x512 .f32) (x6 : Vec F S512x512 .f32) (x7 : Vec F S512x512 .f32) (x8 : Vec F S1x512 .f32) (x9 : Vec F S1x512 .f32) (x10 : Vec F S1x512 .f32) (x11 : Vec F S1000x512 .f32) (x12 : Vec F S1x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (coverOut _)

/-! ## The proof data -/

/-- The proof data on core `c`: the arrays as the region finds them; after the body each input's buffer at its block
    and the output's at `outBlock` of the input blocks; the invariant the scoped buffers that are no staging buffer;
    nothing owed; the transposed activation's buffer and the first weight matrix's each dealt in quarters among
    their four windows, every other input array at the full share. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = iblk m c 11 t := by dsimp only [dat]
theorem after_12 (c : Dev nD) (t : Fin cfg0.N) : (dat m c).after 12 t = iblk m c 12 t := by dsimp only [dat]
theorem after_13 (c : Dev nD) (t : Fin cfg0.N) : (dat m c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dat]

theorem before_0 (c : Dev nD) (t : Fin cfg0.N) (d) : (dat m c).before 0 t d = iblk m c 0 t :=
  before_0_of m (dat m c) (A_eq m c 0) (after_0 m c) t d
theorem before_1 (c : Dev nD) (t : Fin cfg0.N) (d) : (dat m c).before 1 t d = iblk m c 1 t :=
  before_1_of m (dat m c) (A_eq m c 1) (after_1 m c) t d
theorem before_2 (c : Dev nD) (t : Fin cfg0.N) (d) : (dat m c).before 2 t d = iblk m c 2 t :=
  before_2_of m (dat m c) (A_eq m c 2) (after_2 m c) t d
theorem before_3 (c : Dev nD) (t : Fin cfg0.N) (d) : (dat m c).before 3 t d = iblk m c 3 t :=
  before_3_of m (dat m c) (A_eq m c 3) (after_3 m c) t d
theorem before_4 (c : Dev nD) (t : Fin cfg0.N) (d) : (dat m c).before 4 t d = iblk m c 4 t :=
  before_4_of m (dat m c) (A_eq m c 4) (after_4 m c) t d
theorem before_5 (c : Dev nD) (t : Fin cfg0.N) (d) : (dat m c).before 5 t d = iblk m c 5 t :=
  before_5_of m (dat m c) (A_eq m c 5) (after_5 m c) t d
theorem before_6 (c : Dev nD) (t : Fin cfg0.N) (d) : (dat m c).before 6 t d = iblk m c 6 t :=
  before_6_of m (dat m c) (A_eq m c 6) (after_6 m c) t d
theorem before_7 (c : Dev nD) (t : Fin cfg0.N) (d) : (dat m c).before 7 t d = iblk m c 7 t :=
  before_7_of m (dat m c) (A_eq m c 7) (after_7 m c) t d
theorem before_8 (c : Dev nD) (t : Fin cfg0.N) (d) : (dat m c).before 8 t d = iblk m c 8 t :=
  before_8_of m (dat m c) (A_eq m c 8) (after_8 m c) t d
theorem before_9 (c : Dev nD) (t : Fin cfg0.N) (d) : (dat m c).before 9 t d = iblk m c 9 t :=
  before_9_of m (dat m c) (A_eq m c 9) (after_9 m c) t d
theorem before_10 (c : Dev nD) (t : Fin cfg0.N) (d) : (dat m c).before 10 t d = iblk m c 10 t :=
  before_10_of m (dat m c) (A_eq m c 10) (after_10 m c) t d
theorem before_11 (c : Dev nD) (t : Fin cfg0.N) (d) : (dat m c).before 11 t d = iblk m c 11 t :=
  before_11_of m (dat m c) (A_eq m c 11) (after_11 m c) t d
theorem before_12 (c : Dev nD) (t : Fin cfg0.N) (d) : (dat m c).before 12 t d = iblk m c 12 t :=
  before_12_of m (dat m c) (A_eq m c 12) (after_12 m c) t d

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d)))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ owns (c : Thread nD τ) (st0_13 t) fullShare ((dat m c).after 13 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dat m c).Φ t.succ = (dat m c).Φ t.castSucc from rfl,
    show (dat m c).owesAt () t.succ = (dat m c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Frame

end
-- ==== Proof.KernelRun.lean ====
/-
  The run of the fused kernel's program.  At the region's entry the buffer behind the transposed activation is dealt
  in quarters among the four windows that read its channel slices, and the first weight matrix's likewise among the
  four windows that read its row slices; every other array is held whole by its one window.  The shared-array frame
  run then ends with every argument array as launched and the result array at what the four write-backs leave.
-/
import proofs.«179224_g2000702530078706_pallasbulk_22_26_alg».proof.Proof.KernelFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight distinct buffers behind the fourteen windows' arrays, each whole at the full share. -/
theorem arrBufs_eq (c : Dev nD) :
    (Pipeline.arrBufs (Ix := Unit) (Name := ℕ) (U := UR sig nD τ) (Lvl := ℕ) spec0 c (V m c) : sProp 𝕄)
      = iprop((((c : Thread nD τ).loc main_call0_v1) ↦{fullShare} V m c main_call0_v1) ∗ (((c : Thread nD τ).loc main_arg1) ↦{fullShare} V m c main_arg1)
          ∗ (((c : Thread nD τ).loc main_arg2) ↦{fullShare} V m c main_arg2) ∗ (((c : Thread nD τ).loc main_arg3) ↦{fullShare} V m c main_arg3)
          ∗ (((c : Thread nD τ).loc main_arg4) ↦{fullShare} V m c main_arg4) ∗ (((c : Thread nD τ).loc main_call0_v2) ↦{fullShare} V m c main_call0_v2)
          ∗ (((c : Thread nD τ).loc main_arg6) ↦{fullShare} V m c main_arg6) ∗ (((c : Thread nD τ).loc main_v0) ↦{fullShare} V m c main_v0)) := by
  unfold Pipeline.arrBufs
  exact bigSep_eq_bigSepL_of_eq [main_call0_v1, main_arg1, main_arg2, main_arg3, main_arg4, main_call0_v2, main_arg6, main_v0] (by decide) (by decide) _

/-- One window's array in the proof data's `arrays`: the buffer behind it, whole, at the window's share. -/
theorem arr_piece (c : Dev nD) (w : Fin cfg0.W) :
    ((cfg0.win w).arr.view.loc (c : Thread nD τ) ↦[(cfg0.win w).arr.view.set]{(dat m c).share w} (dat m c).arrAt w 0 : sProp 𝕄)
      = (((c : Thread nD τ).loc (Pipeline.arrRef spec0 w)) ↦{(dat m c).share w} V m c (Pipeline.arrRef spec0 w)) := by
  rw [(arr_whole0 w).set_eq_univ]; rfl

/-- The proof data's arrays at entry, window by window. -/
theorem arrays_eq (c : Dev nD) :
    (dat m c).arrays ((dat m c).arrAt · 0)
      = iprop((((c : Thread nD τ).loc main_call0_v1) ↦{fullShare.left.left} V m c main_call0_v1)
          ∗ (((c : Thread nD τ).loc main_call0_v1) ↦{fullShare.left.right} V m c main_call0_v1)
          ∗ (((c : Thread nD τ).loc main_call0_v1) ↦{fullShare.right.left} V m c main_call0_v1)
          ∗ (((c : Thread nD τ).loc main_call0_v1) ↦{fullShare.right.right} V m c main_call0_v1)
          ∗ (((c : Thread nD τ).loc main_arg1) ↦{fullShare.left.left} V m c main_arg1)
          ∗ (((c : Thread nD τ).loc main_arg1) ↦{fullShare.left.right} V m c main_arg1)
          ∗ (((c : Thread nD τ).loc main_arg1) ↦{fullShare.right.left} V m c main_arg1)
          ∗ (((c : Thread nD τ).loc main_arg1) ↦{fullShare.right.right} V m c main_arg1)
          ∗ (((c : Thread nD τ).loc main_arg2) ↦{fullShare} V m c main_arg2)
          ∗ (((c : Thread nD τ).loc main_arg3) ↦{fullShare} V m c main_arg3)
          ∗ (((c : Thread nD τ).loc main_arg4) ↦{fullShare} V m c main_arg4)
          ∗ (((c : Thread nD τ).loc main_call0_v2) ↦{fullShare} V m c main_call0_v2)
          ∗ (((c : Thread nD τ).loc main_arg6) ↦{fullShare} V m c main_arg6)
          ∗ (((c : Thread nD τ).loc main_v0) ↦{fullShare} V m c main_v0)) := by
  unfold Pipeline.Dat.arrays
  rw [bigSep_W0]
  rw [arr_piece m c 0, arr_piece m c 1, arr_piece m c 2, arr_piece m c 3, arr_piece m c 4, arr_piece m c 5, arr_piece m c 6, arr_piece m c 7, arr_piece m c 8, arr_piece m c 9, arr_piece m c 10, arr_piece m c 11, arr_piece m c 12, arr_piece m c 13]
  rfl

/-- A whole buffer at the full share is four quarter shares of it. -/
theorem quarters {ℓ : Loc nD τ sig} (f : Buf (Elt F) ℓ) :
    (ℓ ↦{fullShare} f : sProp 𝕄) ⊢ iprop((ℓ ↦{fullShare.left.left} f) ∗ (ℓ ↦{fullShare.left.right} f) ∗ (ℓ ↦{fullShare.right.left} f) ∗ (ℓ ↦{fullShare.right.right} f)) := by
  iintro H
  ihave H' := (pointsTo_share (PosShare.mem_left_op_right fullShare)).1 $$ H
  icases H' with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  iexact H3

/-- The buffers behind the arrays, dealt among the windows. -/
theorem hsplit (c : Dev nD) :
    (Pipeline.arrBufs (Ix := Unit) (Name := ℕ) (U := UR sig nD τ) (Lvl := ℕ) spec0 c (V m c) : sProp 𝕄) ⊢ (dat m c).arrays ((dat m c).arrAt · 0) := by
  rw [arrBufs_eq, arrays_eq]
  iintro ⟨Hx, Hw, H2, H3, H4, Ht, H6, Ho⟩
  ihave Hx' := (quarters _) $$ Hx
  icases Hx' with ⟨Hx0, Hx1, Hx2, Hx3⟩
  ihave Hw' := (quarters _) $$ Hw
  icases Hw' with ⟨Hw0, Hw1, Hw2, Hw3⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  isplitl [H2]; · iexact H2
  isplitl [H3]; · iexact H3
  isplitl [H4]; · iexact H4
  isplitl [Ht]; · iexact Ht
  isplitl [H6]; · iexact H6
  iexact Ho

/-- The frame run: every window's array ends at what the write-backs leave, every other unscoped buffer as the region
    found it. -/
theorem run_main : θ_run defs (onTc (τ := τ) (main (F := F))) (s₀ m ρ) (Pipeline.FramePost cfgs (fun _ c => dat m c) 0 (V m)) :=
  Pipeline.θ_run_frame_sharedArrays cfgs (fun _ c => dat m c) 0 cellOf_inj winFacts₀0 block_pos0 arr_whole0 stage_whole0 defs₀ Variants.none m ρ main
    (fun c => (body_obligation m c).loose) (fun _ _ => rfl) (V m) (hmain m Variants.none) (hsplit m) (fun _ _ => rfl)

/-- The run read at the result and at the arguments: the result array is the output window's array after the four
    write-backs, and every argument array ends as launched. -/
theorem run_value : θ_run defs (onTc (τ := τ) (main (F := F))) ⟨m, fun _ => 0, ρ⟩ (fun r => ∀ c : Dev nD,
      r.2.mem ((c.tc : Thread nD τ).loc main_v0) = (dat m c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 13,
      ((h c).2 main_arg0 (Pipeline.mem_restRefs_of main_arg0 (by decide) (by decide))).trans (V_main_arg0 m c),
      ((h c).1 4).trans (((dat m c).arrAt_in 4 rfl _).trans ((A_eq m c 4).trans (V_main_arg1 m c))),
      ((h c).1 8).trans (((dat m c).arrAt_in 8 rfl _).trans ((A_eq m c 8).trans (V_main_arg2 m c))),
      ((h c).1 9).trans (((dat m c).arrAt_in 9 rfl _).trans ((A_eq m c 9).trans (V_main_arg3 m c))),
      ((h c).1 10).trans (((dat m c).arrAt_in 10 rfl _).trans ((A_eq m c 10).trans (V_main_arg4 m c))),
      ((h c).2 main_arg5 (Pipeline.mem_restRefs_of main_arg5 (by decide) (by decide))).trans (V_main_arg5 m c),
      ((h c).1 12).trans (((dat m c).arrAt_in 12 rfl _).trans ((A_eq m c 12).trans (V_main_arg6 m c)))⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Frame

end
-- ==== Proof.KernelIdealFrame.lean ====
/-
  The frame of the fused pool / linear / scale-shift / rectifier / classifier kernel, whose one pallas_call hands the
  transposed activation to four input windows (four channel slices of 512) and the first weight matrix to four
  more (its four row slices of 512): the buffers behind those two arrays are dealt in quarters among their windows.
  Per grid point the body loads every input block whole and stores the output block whole; what the output's
  staging buffer then holds is the body's one payload of the thirteen input blocks.  The run is the shared-array
  frame run; read at the argument arrays it is the frame claim, read at the result it names the result array.
-/
import proofs.«179224_g2000702530078706_pallasbulk_22_26_alg».proof.Proof.Gen.KernelIdeal.Launch
import proofs.«179224_g2000702530078706_pallasbulk_22_26_alg».proof.Proof.Gen.KernelIdeal.Skeleton
import proofs.«179224_g2000702530078706_pallasbulk_22_26_alg».proof.Proof.Gen.KernelIdeal.Points
import proofs.«179224_g2000702530078706_pallasbulk_22_26_alg».proof.Proof.LibSharedLaunch
import Idealize.ShloMosaic.Lib.Pipeline.FrameBody
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The TensorCore's buffers after the two transposes and the reshape that precede the region. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the region-entry one and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S49x32x512 := Rect.unit (s := S49x32x512) ![0, 0, 0] S49x32x512.size inb_S49x32x512_S49x32x512_0_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rT : Rect S1000x512 := Rect.unit (s := S1000x512) ![0, 0] S1000x512.size inb_S1000x512_S1000x512_0_0
abbrev rC : Rect S1x1000 := Rect.unit (s := S1x1000) ![0, 0] S1x1000.size inb_S1x1000_S1x1000_0_0
abbrev rO : Rect S32x1000 := Rect.unit (s := S32x1000) ![0, 0] S32x1000.size inb_S32x1000_S32x1000_0_0

/-- The output block after the body, from the thirteen input blocks: its one store, of the body's payload. -/
def outBlock (x0 : Vec F S49x32x512 .f32) (x1 : Vec F S49x32x512 .f32) (x2 : Vec F S49x32x512 .f32) (x3 : Vec F S49x32x512 .f32) (x4 : Vec F S512x512 .f32) (x5 : Vec F S512x512 .f32) (x6 : Vec F S512x512 .f32) (x7 : Vec F S512x512 .f32) (x8 : Vec F S1x512 .f32) (x9 : Vec F S1x512 .f32) (x10 : Vec F S1x512 .f32) (x11 : Vec F S1000x512 .f32) (x12 : Vec F S1x1000 .f32) : Vec F S32x1000 .f32 :=
  View.canon [⟨rO, k0_pay1 (k0_pay2 (View.ld x0 rX) (View.ld x4 rW) (View.ld x1 rX) (View.ld x5 rW) (View.ld x2 rX) (View.ld x6 rW)) (k0_pay3 (View.ld x3 rX)) (View.ld x7 rW) (View.ld x8 rB) (View.ld x9 rB) (View.ld x10 rB) (View.ld x11 rT) (View.ld x12 rC)⟩]

/-- The one store covers the output block. -/
theorem coverOut (p0 : Vec F S32x1000 .f32) (y : S32x1000.Idx) :
    ∃ pc ∈ ([⟨rO, p0⟩] : List (View.Piece (Elt F) S32x1000 .f32)), y ∈ pc.1.set :=
  View.cover_of_tiled [⟨rO, p0⟩] S32x1000.size (by rfl) y

set_option maxHeartbeats 4000000 in
/-- The body on whole staging memrefs, the inputs' at contents `xW` and the output's at anything, runs to the
    continuation holding the inputs' as they were and the output's at `outBlock` of the inputs'. -/
theorem sound_kernel (c : Dev nD) (E : Set ℕ) (i : grid0.Coords) (arg1 : Memref sig .tc .vmem S49x32x512 .f32) (harg1 : arg1.IsWhole) (arg2 : Memref sig .tc .vmem S49x32x512 .f32) (harg2 : arg2.IsWhole) (arg3 : Memref sig .tc .vmem S49x32x512 .f32) (harg3 : arg3.IsWhole) (arg4 : Memref sig .tc .vmem S49x32x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1000x512 .f32) (harg12 : arg12.IsWhole) (arg13 : Memref sig .tc .vmem S1x1000 .f32) (harg13 : arg13.IsWhole) (arg14 : Memref sig .tc .vmem S32x1000 .f32) (harg14 : arg14.IsWhole)
    (x0 : Vec F S49x32x512 .f32) (x1 : Vec F S49x32x512 .f32) (x2 : Vec F S49x32x512 .f32) (x3 : Vec F S49x32x512 .f32) (x4 : Vec F S512x512 .f32) (x5 : Vec F S512x512 .f32) (x6 : Vec F S512x512 .f32) (x7 : Vec F S512x512 .f32) (x8 : Vec F S1x512 .f32) (x9 : Vec F S1x512 .f32) (x10 : Vec F S1x512 .f32) (x11 : Vec F S1000x512 .f32) (x12 : Vec F S1x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outBlock x0 x1 x2 x3 x4 x5 x6 x7 x8 x9 x10 x11 x12)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (coverOut _)

/-! ## The proof data -/

/-- The proof data on core `c`: the arrays as the region finds them; after the body each input's buffer at its block
    and the output's at `outBlock` of the input blocks; the invariant the scoped buffers that are no staging buffer;
    nothing owed; the transposed activation's buffer and the first weight matrix's each dealt in quarters among
    their four windows, every other input array at the full share. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = iblk m c 11 t := by dsimp only [dat]
theorem after_12 (c : Dev nD) (t : Fin cfg0.N) : (dat m c).after 12 t = iblk m c 12 t := by dsimp only [dat]
theorem after_13 (c : Dev nD) (t : Fin cfg0.N) : (dat m c).after 13 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dat]

theorem before_0 (c : Dev nD) (t : Fin cfg0.N) (d) : (dat m c).before 0 t d = iblk m c 0 t :=
  before_0_of m (dat m c) (A_eq m c 0) (after_0 m c) t d
theorem before_1 (c : Dev nD) (t : Fin cfg0.N) (d) : (dat m c).before 1 t d = iblk m c 1 t :=
  before_1_of m (dat m c) (A_eq m c 1) (after_1 m c) t d
theorem before_2 (c : Dev nD) (t : Fin cfg0.N) (d) : (dat m c).before 2 t d = iblk m c 2 t :=
  before_2_of m (dat m c) (A_eq m c 2) (after_2 m c) t d
theorem before_3 (c : Dev nD) (t : Fin cfg0.N) (d) : (dat m c).before 3 t d = iblk m c 3 t :=
  before_3_of m (dat m c) (A_eq m c 3) (after_3 m c) t d
theorem before_4 (c : Dev nD) (t : Fin cfg0.N) (d) : (dat m c).before 4 t d = iblk m c 4 t :=
  before_4_of m (dat m c) (A_eq m c 4) (after_4 m c) t d
theorem before_5 (c : Dev nD) (t : Fin cfg0.N) (d) : (dat m c).before 5 t d = iblk m c 5 t :=
  before_5_of m (dat m c) (A_eq m c 5) (after_5 m c) t d
theorem before_6 (c : Dev nD) (t : Fin cfg0.N) (d) : (dat m c).before 6 t d = iblk m c 6 t :=
  before_6_of m (dat m c) (A_eq m c 6) (after_6 m c) t d
theorem before_7 (c : Dev nD) (t : Fin cfg0.N) (d) : (dat m c).before 7 t d = iblk m c 7 t :=
  before_7_of m (dat m c) (A_eq m c 7) (after_7 m c) t d
theorem before_8 (c : Dev nD) (t : Fin cfg0.N) (d) : (dat m c).before 8 t d = iblk m c 8 t :=
  before_8_of m (dat m c) (A_eq m c 8) (after_8 m c) t d
theorem before_9 (c : Dev nD) (t : Fin cfg0.N) (d) : (dat m c).before 9 t d = iblk m c 9 t :=
  before_9_of m (dat m c) (A_eq m c 9) (after_9 m c) t d
theorem before_10 (c : Dev nD) (t : Fin cfg0.N) (d) : (dat m c).before 10 t d = iblk m c 10 t :=
  before_10_of m (dat m c) (A_eq m c 10) (after_10 m c) t d
theorem before_11 (c : Dev nD) (t : Fin cfg0.N) (d) : (dat m c).before 11 t d = iblk m c 11 t :=
  before_11_of m (dat m c) (A_eq m c 11) (after_11 m c) t d
theorem before_12 (c : Dev nD) (t : Fin cfg0.N) (d) : (dat m c).before 12 t d = iblk m c 12 t :=
  before_12_of m (dat m c) (A_eq m c 12) (after_12 m c) t d

/-! ## The body obligation -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d)))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ owns (c : Thread nD τ) (st0_13 t) fullShare ((dat m c).after 13 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dat m c).Φ t.succ = (dat m c).Φ t.castSucc from rfl,
    show (dat m c).owesAt () t.succ = (dat m c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Frame

end
-- ==== Proof.KernelIdealRun.lean ====
/-
  The run of the fused kernel's program.  At the region's entry the buffer behind the transposed activation is dealt
  in quarters among the four windows that read its channel slices, and the first weight matrix's likewise among the
  four windows that read its row slices; every other array is held whole by its one window.  The shared-array frame
  run then ends with every argument array as launched and the result array at what the four write-backs leave.
-/
import proofs.«179224_g2000702530078706_pallasbulk_22_26_alg».proof.Proof.KernelIdealFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight distinct buffers behind the fourteen windows' arrays, each whole at the full share. -/
theorem arrBufs_eq (c : Dev nD) :
    (Pipeline.arrBufs (Ix := Unit) (Name := ℕ) (U := UR sig nD τ) (Lvl := ℕ) spec0 c (V m c) : sProp 𝕄)
      = iprop((((c : Thread nD τ).loc main_call0_v1) ↦{fullShare} V m c main_call0_v1) ∗ (((c : Thread nD τ).loc main_arg1) ↦{fullShare} V m c main_arg1)
          ∗ (((c : Thread nD τ).loc main_arg2) ↦{fullShare} V m c main_arg2) ∗ (((c : Thread nD τ).loc main_arg3) ↦{fullShare} V m c main_arg3)
          ∗ (((c : Thread nD τ).loc main_arg4) ↦{fullShare} V m c main_arg4) ∗ (((c : Thread nD τ).loc main_call0_v2) ↦{fullShare} V m c main_call0_v2)
          ∗ (((c : Thread nD τ).loc main_arg6) ↦{fullShare} V m c main_arg6) ∗ (((c : Thread nD τ).loc main_v0) ↦{fullShare} V m c main_v0)) := by
  unfold Pipeline.arrBufs
  exact bigSep_eq_bigSepL_of_eq [main_call0_v1, main_arg1, main_arg2, main_arg3, main_arg4, main_call0_v2, main_arg6, main_v0] (by decide) (by decide) _

/-- One window's array in the proof data's `arrays`: the buffer behind it, whole, at the window's share. -/
theorem arr_piece (c : Dev nD) (w : Fin cfg0.W) :
    ((cfg0.win w).arr.view.loc (c : Thread nD τ) ↦[(cfg0.win w).arr.view.set]{(dat m c).share w} (dat m c).arrAt w 0 : sProp 𝕄)
      = (((c : Thread nD τ).loc (Pipeline.arrRef spec0 w)) ↦{(dat m c).share w} V m c (Pipeline.arrRef spec0 w)) := by
  rw [(arr_whole0 w).set_eq_univ]; rfl

/-- The proof data's arrays at entry, window by window. -/
theorem arrays_eq (c : Dev nD) :
    (dat m c).arrays ((dat m c).arrAt · 0)
      = iprop((((c : Thread nD τ).loc main_call0_v1) ↦{fullShare.left.left} V m c main_call0_v1)
          ∗ (((c : Thread nD τ).loc main_call0_v1) ↦{fullShare.left.right} V m c main_call0_v1)
          ∗ (((c : Thread nD τ).loc main_call0_v1) ↦{fullShare.right.left} V m c main_call0_v1)
          ∗ (((c : Thread nD τ).loc main_call0_v1) ↦{fullShare.right.right} V m c main_call0_v1)
          ∗ (((c : Thread nD τ).loc main_arg1) ↦{fullShare.left.left} V m c main_arg1)
          ∗ (((c : Thread nD τ).loc main_arg1) ↦{fullShare.left.right} V m c main_arg1)
          ∗ (((c : Thread nD τ).loc main_arg1) ↦{fullShare.right.left} V m c main_arg1)
          ∗ (((c : Thread nD τ).loc main_arg1) ↦{fullShare.right.right} V m c main_arg1)
          ∗ (((c : Thread nD τ).loc main_arg2) ↦{fullShare} V m c main_arg2)
          ∗ (((c : Thread nD τ).loc main_arg3) ↦{fullShare} V m c main_arg3)
          ∗ (((c : Thread nD τ).loc main_arg4) ↦{fullShare} V m c main_arg4)
          ∗ (((c : Thread nD τ).loc main_call0_v2) ↦{fullShare} V m c main_call0_v2)
          ∗ (((c : Thread nD τ).loc main_arg6) ↦{fullShare} V m c main_arg6)
          ∗ (((c : Thread nD τ).loc main_v0) ↦{fullShare} V m c main_v0)) := by
  unfold Pipeline.Dat.arrays
  rw [bigSep_W0]
  rw [arr_piece m c 0, arr_piece m c 1, arr_piece m c 2, arr_piece m c 3, arr_piece m c 4, arr_piece m c 5, arr_piece m c 6, arr_piece m c 7, arr_piece m c 8, arr_piece m c 9, arr_piece m c 10, arr_piece m c 11, arr_piece m c 12, arr_piece m c 13]
  rfl

/-- A whole buffer at the full share is four quarter shares of it. -/
theorem quarters {ℓ : Loc nD τ sig} (f : Buf (Elt F) ℓ) :
    (ℓ ↦{fullShare} f : sProp 𝕄) ⊢ iprop((ℓ ↦{fullShare.left.left} f) ∗ (ℓ ↦{fullShare.left.right} f) ∗ (ℓ ↦{fullShare.right.left} f) ∗ (ℓ ↦{fullShare.right.right} f)) := by
  iintro H
  ihave H' := (pointsTo_share (PosShare.mem_left_op_right fullShare)).1 $$ H
  icases H' with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  iexact H3

/-- The buffers behind the arrays, dealt among the windows. -/
theorem hsplit (c : Dev nD) :
    (Pipeline.arrBufs (Ix := Unit) (Name := ℕ) (U := UR sig nD τ) (Lvl := ℕ) spec0 c (V m c) : sProp 𝕄) ⊢ (dat m c).arrays ((dat m c).arrAt · 0) := by
  rw [arrBufs_eq, arrays_eq]
  iintro ⟨Hx, Hw, H2, H3, H4, Ht, H6, Ho⟩
  ihave Hx' := (quarters _) $$ Hx
  icases Hx' with ⟨Hx0, Hx1, Hx2, Hx3⟩
  ihave Hw' := (quarters _) $$ Hw
  icases Hw' with ⟨Hw0, Hw1, Hw2, Hw3⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  isplitl [H2]; · iexact H2
  isplitl [H3]; · iexact H3
  isplitl [H4]; · iexact H4
  isplitl [Ht]; · iexact Ht
  isplitl [H6]; · iexact H6
  iexact Ho

/-- The frame run: every window's array ends at what the write-backs leave, every other unscoped buffer as the region
    found it. -/
theorem run_main : θ_run defs (onTc (τ := τ) (main (F := F))) (s₀ m ρ) (Pipeline.FramePost cfgs (fun _ c => dat m c) 0 (V m)) :=
  Pipeline.θ_run_frame_sharedArrays cfgs (fun _ c => dat m c) 0 cellOf_inj winFacts₀0 block_pos0 arr_whole0 stage_whole0 defs₀ Variants.none m ρ main
    (fun c => (body_obligation m c).loose) (fun _ _ => rfl) (V m) (hmain m Variants.none) (hsplit m) (fun _ _ => rfl)

/-- The run read at the result and at the arguments: the result array is the output window's array after the four
    write-backs, and every argument array ends as launched. -/
theorem run_value : θ_run defs (onTc (τ := τ) (main (F := F))) ⟨m, fun _ => 0, ρ⟩ (fun r => ∀ c : Dev nD,
      r.2.mem ((c.tc : Thread nD τ).loc main_v0) = (dat m c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 13,
      ((h c).2 main_arg0 (Pipeline.mem_restRefs_of main_arg0 (by decide) (by decide))).trans (V_main_arg0 m c),
      ((h c).1 4).trans (((dat m c).arrAt_in 4 rfl _).trans ((A_eq m c 4).trans (V_main_arg1 m c))),
      ((h c).1 8).trans (((dat m c).arrAt_in 8 rfl _).trans ((A_eq m c 8).trans (V_main_arg2 m c))),
      ((h c).1 9).trans (((dat m c).arrAt_in 9 rfl _).trans ((A_eq m c 9).trans (V_main_arg3 m c))),
      ((h c).1 10).trans (((dat m c).arrAt_in 10 rfl _).trans ((A_eq m c 10).trans (V_main_arg4 m c))),
      ((h c).2 main_arg5 (Pipeline.mem_restRefs_of main_arg5 (by decide) (by decide))).trans (V_main_arg5 m c),
      ((h c).1 12).trans (((dat m c).arrAt_in 12 rfl _).trans ((A_eq m c 12).trans (V_main_arg6 m c)))⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Frame

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibLead3.lean ====
/-
  A reduction over the LEADING axis of a rank-3 vector, read at an index of the rank-2 result: the sum over the
  first axis of a `[c, a, b]` vector, read at `(p, q)`, is `∑ k : Fin c, src (k, p, q)`.  For any extents and any
  float format: the one-axis reading of the ideal values' reduction with the inserted index spelt by its coordinates.
-/
import Idealize.ShloMosaic.Lib.ValueIdx
import Idealize.ShloMosaic.PureOps.Ideal.Laws

noncomputable section

open scoped BigOperators

namespace Cert.LibLead3

open Idealize.ShloMosaic Idealize.ShloMosaic.ValueIdx

/-- The index a leading-axis reduction of a rank-3 shape inserts coordinate `k` into, at `(p, q)`, is `(k, p, q)`. -/
theorem lift_lead3 {c a b : ℕ} (h : (⟨3, ![c, a, b]⟩ : Shape).Reduces [0] ⟨2, ![a, b]⟩) (p : Fin a) (q : Fin b)
    (k : Fin c) : h.lift (ix2 p q) k = ix3 k p q :=
  funext fun ax => Fin.ext (by match ax with | ⟨0, _⟩ => rfl | ⟨1, _⟩ => rfl | ⟨2, _⟩ => rfl)

/-- The sum over the leading axis of a `[c, a, b]` vector, read at `(p, q)`: `∑ k, src (k, p, q)`. -/
theorem multiReduction_add_lead3_apply {c a b : ℕ} {φ : FTy} (src : FVec Ideal ⟨3, ![c, a, b]⟩ φ)
    (acc : BitVec φ.bits) (h : (⟨3, ![c, a, b]⟩ : Shape).Reduces [0] ⟨2, ![a, b]⟩) (hφ : FKind.Formats φ)
    (hacc : acc = FKind.add.neutral φ hφ) (p : Fin a) (q : Fin b) :
    multiReduction .add [0] ⟨2, ![a, b]⟩ src acc h hφ hacc (ix2 p q) = ∑ k : Fin c, src (ix3 k p q) :=
  (Ideal.multiReduction_add_single src acc h hφ hacc (ix2 p q)).trans
    (Finset.sum_congr rfl fun k _ => congrArg src (lift_lead3 h p q k))

end Cert.LibLead3

end
-- ==== Proof.LibSums.lean ====
/-
  Sums over rank-3 index sets, by coordinates. A rank-3 index set is the product of its three coordinate ranges, so a
  sum over it is a triple sum; it is also the product of its leading coordinate with the rank-2 index set of the other
  two. A leading axis of extent T·B is T consecutive blocks of B rows, so a sum over a [T·B, R, C] array is the sum
  over the T blocks of the sums over each [B, R, C] block. All in any additive commutative monoid, generic in the extents.
-/
import Idealize.ShloMosaic.Lib.ValueIdx
import Mathlib.Algebra.BigOperators.Fin
import Mathlib.Logic.Equiv.Fin.Basic

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set is the sum over the leading coordinate of the sums over the rank-2 index set of the
    other two. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over `Fin (T * B)` is the sum over `T` blocks of the sums over the `B` offsets inside each block. -/
theorem sum_fin_mul {M : Type*} [AddCommMonoid M] {T B : Nat} (h : Fin (T * B) → M) :
    ∑ x, h x = ∑ t : Fin T, ∑ y : Fin B,
      h ⟨t.val * B + y.val, by
        have ht := t.isLt; have hy := y.isLt
        calc t.val * B + y.val < t.val * B + B := by omega
          _ = (t.val + 1) * B := by ring
          _ ≤ T * B := Nat.mul_le_mul_right B ht⟩ := by
  rw [← Equiv.sum_comp finProdFinEquiv h, Fintype.sum_prod_type]
  refine Finset.sum_congr rfl fun t _ => Finset.sum_congr rfl fun y _ => congrArg h (Fin.ext ?_)
  show y.val + B * t.val = t.val * B + y.val
  rw [Nat.mul_comm, Nat.add_comm]

/-- Row `y` of block `t`, as an index of the whole [T·B, R, C] array. -/
def blockIdx {T B R C : Nat} (t : Fin T) (y : (⟨3, ![B, R, C]⟩ : Shape).Idx) : (⟨3, ![T * B, R, C]⟩ : Shape).Idx :=
  ix3 ⟨t.val * B + (y 0).val, by
    have ht := t.isLt; have hy : (y 0).val < B := (y 0).isLt
    calc t.val * B + (y 0).val < t.val * B + B := by omega
      _ = (t.val + 1) * B := by ring
      _ ≤ T * B := Nat.mul_le_mul_right B ht⟩ (y 1) (y 2)

/-- A sum over a [T·B, R, C] array is the sum over its T blocks of `B` rows of the sums over each block. -/
theorem sum_blocks {M : Type*} [AddCommMonoid M] {T B R C : Nat} (f : (⟨3, ![T * B, R, C]⟩ : Shape).Idx → M) :
    ∑ z, f z = ∑ t : Fin T, ∑ y : (⟨3, ![B, R, C]⟩ : Shape).Idx, f (blockIdx t y) := by
  rw [sum_idx3, sum_fin_mul]
  refine Finset.sum_congr rfl fun t _ => ?_
  rw [sum_idx3]
  rfl

end Cert.LibSums

end
-- ==== Proof.Spec.lean ====
/-
  The function both programs compute, index by index, on the extended reals.

  The activation `x[b, c, h, w]` is averaged over its 7×7 positions with the single-precision constant nearest 1/49
  (the same constant in both programs, kept as its word): `pooled b c = (∑ₛ x[b, c, s / 7, s % 7]) · κ`.  A linear
  layer, a per-feature scale and shift and a rectifier give `hidden b d = max (((∑_c pooled b c · w1[c, d]) + b1[d]) · s[d]
  + t[d]) 0`, and the classifier gives `G b n = (∑_d hidden b d · w2[d, n]) + b2[n]`.

  One program contracts the 2048 channels in one sum, the other in four consecutive slices of 512 added left to
  right: `sum_four_slices`.  Only the commutativity and associativity of the extended reals' sum are used, so nothing
  here asks the inputs to be finite.
-/
import Idealize.ShloMosaic.Lib.ValueIdx
import Idealize.ShloMosaic.PureOps.Ideal
import proofs.«179224_g2000702530078706_pallasbulk_22_26_alg».proof.Proof.LibSums

noncomputable section

open scoped BigOperators

namespace Cert.Spec

open Idealize.ShloMosaic Idealize.ShloMosaic.ValueIdx

/-- The single-precision constant nearest 1/49, as the extended real its word denotes. -/
abbrev κ : EReal := Ideal.ofBits .f32 0x3CA72F05#32
/-- The rectifier's floor: the zero word's extended real. -/
abbrev z : EReal := Ideal.ofBits .f32 0x00000000#32

/-- Spatial position `s` of the 49 as its row and column in the 7×7 map. -/
abbrev row (s : Fin 49) : Fin 7 := ⟨s.val / 7, by have := s.isLt; omega⟩
abbrev col (s : Fin 49) : Fin 7 := ⟨s.val % 7, Nat.mod_lt _ (by decide)⟩

/-- The spatial mean with the rounded reciprocal. -/
def pooled (x : (⟨4, ![128, 2048, 7, 7]⟩ : Shape).Idx → EReal) (b : Fin 128) (c : Fin 2048) : EReal :=
  (∑ s : Fin 49, x (ix4 b c (row s) (col s))) * κ

/-- Linear layer, scale and shift, rectifier. -/
def hidden (x : (⟨4, ![128, 2048, 7, 7]⟩ : Shape).Idx → EReal) (w1 : (⟨2, ![2048, 512]⟩ : Shape).Idx → EReal)
    (b1 sc sh : (⟨2, ![1, 512]⟩ : Shape).Idx → EReal) (b : Fin 128) (d : Fin 512) : EReal :=
  max (((∑ c : Fin 2048, pooled x b c * w1 (ix2 c d)) + b1 (ix2 0 d)) * sc (ix2 0 d) + sh (ix2 0 d)) z

/-- The classifier scores. -/
def G (x : (⟨4, ![128, 2048, 7, 7]⟩ : Shape).Idx → EReal) (w1 : (⟨2, ![2048, 512]⟩ : Shape).Idx → EReal)
    (b1 sc sh : (⟨2, ![1, 512]⟩ : Shape).Idx → EReal) (w2 : (⟨2, ![512, 1000]⟩ : Shape).Idx → EReal)
    (b2 : (⟨2, ![1, 1000]⟩ : Shape).Idx → EReal) : (⟨2, ![128, 1000]⟩ : Shape).Idx → EReal :=
  fun i => (∑ d : Fin 512, hidden x w1 b1 sc sh (i 0) d * w2 (ix2 d (i 1))) + b2 (ix2 0 (i 1))

/-- Channel `j` of slice `k` among the 2048. -/
abbrev chan (k : Fin 4) (j : Fin 512) : Fin 2048 := ⟨k.val * 512 + j.val, by have := k.isLt; have := j.isLt; omega⟩

/-- A sum over the 2048 channels is its four slices of 512 added left to right. -/
theorem sum_four_slices (f : Fin 2048 → EReal) :
    ∑ c : Fin 2048, f c
      = ((∑ j : Fin 512, f (chan 0 j)) + (∑ j : Fin 512, f (chan 1 j)) + (∑ j : Fin 512, f (chan 2 j))) + (∑ j : Fin 512, f (chan 3 j)) := by
  have h := Cert.LibSums.sum_fin_mul (T := 4) (B := 512) (M := EReal) f
  rw [Fin.sum_univ_four] at h
  exact h

/-- The scores at `(b, n)`. -/
theorem G_apply (x : (⟨4, ![128, 2048, 7, 7]⟩ : Shape).Idx → EReal) (w1 : (⟨2, ![2048, 512]⟩ : Shape).Idx → EReal)
    (b1 sc sh : (⟨2, ![1, 512]⟩ : Shape).Idx → EReal) (w2 : (⟨2, ![512, 1000]⟩ : Shape).Idx → EReal)
    (b2 : (⟨2, ![1, 1000]⟩ : Shape).Idx → EReal) (b : Fin 128) (n : Fin 1000) :
    G x w1 b1 sc sh w2 b2 (ix2 b n) = (∑ d : Fin 512, hidden x w1 b1 sc sh b d * w2 (ix2 d n)) + b2 (ix2 0 n) := rfl

/-- One channel slice's share of the linear layer. -/
def slice (x : (⟨4, ![128, 2048, 7, 7]⟩ : Shape).Idx → EReal) (w1 : (⟨2, ![2048, 512]⟩ : Shape).Idx → EReal)
    (b : Fin 128) (d : Fin 512) (k : Fin 4) : EReal :=
  ∑ j : Fin 512, pooled x b (chan k j) * w1 (ix2 (chan k j) d)

/-- The scores as the slice-by-slice program computes them: the channel sum in four slices added left to right, and the
    classifier's products with the weight on the left. -/
theorem G_sliced (x : (⟨4, ![128, 2048, 7, 7]⟩ : Shape).Idx → EReal) (w1 : (⟨2, ![2048, 512]⟩ : Shape).Idx → EReal)
    (b1 sc sh : (⟨2, ![1, 512]⟩ : Shape).Idx → EReal) (w2 : (⟨2, ![512, 1000]⟩ : Shape).Idx → EReal)
    (b2 : (⟨2, ![1, 1000]⟩ : Shape).Idx → EReal) (b : Fin 128) (n : Fin 1000) :
    (∑ d : Fin 512, w2 (ix2 d n)
        * max ((((slice x w1 b d 0 + slice x w1 b d 1) + slice x w1 b d 2) + slice x w1 b d 3 + b1 (ix2 0 d)) * sc (ix2 0 d) + sh (ix2 0 d)) z)
      + b2 (ix2 0 n) = G x w1 b1 sc sh w2 b2 (ix2 b n) := by
  rw [G_apply]
  congr 1
  refine Finset.sum_congr rfl fun d _ => ?_
  rw [mul_comm]
  congr 1
  unfold hidden
  rw [sum_four_slices (fun c => pooled x b c * w1 (ix2 c d))]
  rfl

end Cert.Spec

end
-- ==== Proof.KernelIdealPayload.lean ====
/-
  The fused kernel's body read at an index of its output block, on the extended reals.  For a block of 32 batch rows:
  each of the four channel slices contributes `part x w p d = ∑ⱼ ((∑ₛ x[s, p, j]) · κ) · w[j, d]` (the block's positions
  summed, scaled by the rounded 1/49, times the slice's 512 rows of the first weight matrix); the four are added left
  to right, the bias added, scaled, shifted and rectified; the classifier is computed transposed — the transposed
  second weight matrix times the transposed hidden block — and transposed back, so at `(p, n)` it is
  `∑_d w2ᵀ[n, d] · hidden[p, d]`, plus the bias.
-/
import proofs.«179224_g2000702530078706_pallasbulk_22_26_alg».proof.Proof.Gen.KernelIdeal.Skeleton
import proofs.«179224_g2000702530078706_pallasbulk_22_26_alg».proof.Proof.LibBlock
import proofs.«179224_g2000702530078706_pallasbulk_22_26_alg».proof.Proof.LibLead3
import proofs.«179224_g2000702530078706_pallasbulk_22_26_alg».proof.Proof.Spec
import Idealize.ShloMosaic.Lib.ValueLayout
import Idealize.ShloMosaic.Lib.Pipeline.Value

noncomputable section

open scoped BigOperators

namespace Cert.KernelIdeal.Payload

open Cert.KernelIdeal Cert.KernelIdeal.Gen
open Idealize.ShloMosaic Idealize.ShloMosaic.ValueIdx

/-- One channel slice's contribution to the linear layer, at batch row `p` of the block and feature `d`. -/
def part (x : FVec Ideal S49x32x512 .f32) (w : FVec Ideal S512x512 .f32) (p : Fin 32) (d : Fin 512) : EReal :=
  ∑ j : Fin 512, ((∑ s : Fin 49, x (ix3 s p j)) * Cert.Spec.κ) * w (ix2 j d)

/-- The pooled slice times the slice's weight rows. -/
theorem part_apply (x : FVec Ideal S49x32x512 .f32) (w : FVec Ideal S512x512 .f32) (p : Fin 32) (d : Fin 512) :
    matmul dot_S32x512_S512x512_S32x512_1_0_0_1_n_n none
      (mulf (multiReduction .add [0] S32x512 (shapeCast S49x32x512 x shapeCasts_S49x32x512_S49x32x512) 0x00000000#32 reduces_S49x32x512_S32x512 (.inl rfl) rfl)
        (broadcast S32x512 (Scalar.ofBits (F := Ideal) .f32 0x3CA72F05#32)))
      w (constant (F := Ideal) S32x512 .f32 0x00000000#32) (ix2 p d) = part x w p d := by
  refine (Cert.LibBlock.matmul_zero_ix2 dot_S32x512_S512x512_S32x512_1_0_0_1_n_n rfl rfl rfl rfl rfl rfl none _ _ p d).trans ?_
  unfold part
  refine Finset.sum_congr rfl fun j _ => ?_
  rw [mulf_apply]
  refine congrArg₂ (· * ·) (congrArg₂ (· * ·) ((Cert.LibLead3.multiReduction_add_lead3_apply _ _ _ _ _ p j).trans ?_) rfl) rfl
  simp only [shapeCast_self]

/-- Bias, scale, shift, rectifier, at `(p, d)`. -/
theorem act_apply (h0 : FVec Ideal S32x512 .f32) (b1 sc sh : FVec Ideal S1x512 .f32) (p : Fin 32) (d : Fin 512) :
    maximumf (addf (mulf (addf h0 (broadcastTo S32x512 b1 broadcasts_S1x512_S32x512)) (broadcastTo S32x512 sc broadcasts_S1x512_S32x512))
        (broadcastTo S32x512 sh broadcasts_S1x512_S32x512)) (broadcast S32x512 (Scalar.ofBits (F := Ideal) .f32 0x00000000#32)) (ix2 p d)
      = max ((h0 (ix2 p d) + b1 (ix2 0 d)) * sc (ix2 0 d) + sh (ix2 0 d)) Cert.Spec.z := by
  rw [maximumf_apply, addf_apply, mulf_apply, addf_apply, broadcastTo_1b_ab_apply, broadcastTo_1b_ab_apply, broadcastTo_1b_ab_apply,
    broadcast_apply]
  rfl

/-- The classifier computed transposed and transposed back, plus its bias, at `(p, n)`. -/
theorem head_apply (h2 : FVec Ideal S32x512 .f32) (w2t : FVec Ideal S1000x512 .f32) (b2 : FVec Ideal S1x1000 .f32) (p : Fin 32) (n : Fin 1000) :
    addf (transpose S32x1000 [1, 0]
        (matmul dot_S1000x512_S512x32_S1000x32_1_0_0_1_n_n none (shapeCast S1000x512 w2t shapeCasts_S1000x512_S1000x512)
          (transpose S512x32 [1, 0] h2 transposes_S32x512_p1_0_S512x32) (constant (F := Ideal) S1000x32 .f32 0x00000000#32))
        transposes_S1000x32_p1_0_S32x1000) (broadcastTo S32x1000 b2 broadcasts_S1x1000_S32x1000) (ix2 p n)
      = (∑ d : Fin 512, w2t (ix2 n d) * h2 (ix2 p d)) + b2 (ix2 0 n) := by
  rw [addf_apply, transpose_ix2_apply, broadcastTo_1b_ab_apply]
  refine congrArg₂ (· + ·) ((Cert.LibBlock.matmul_zero_ix2 dot_S1000x512_S512x32_S1000x32_1_0_0_1_n_n rfl rfl rfl rfl rfl rfl none _ _ n p).trans ?_) rfl
  refine Finset.sum_congr rfl fun d _ => ?_
  rw [transpose_ix2_apply, shapeCast_self]

/-- The body's payload at `(p, n)` of the output block. -/
theorem pay_apply (x0 x1 x2 x3 : FVec Ideal S49x32x512 .f32) (w0 w1 w2 w3 : FVec Ideal S512x512 .f32) (b1 sc sh : FVec Ideal S1x512 .f32)
    (w2t : FVec Ideal S1000x512 .f32) (b2 : FVec Ideal S1x1000 .f32) (p : Fin 32) (n : Fin 1000) :
    k0_pay1 (k0_pay2 x0 w0 x1 w1 x2 w2) (k0_pay3 x3) w3 b1 sc sh w2t b2 (ix2 p n)
      = (∑ d : Fin 512, w2t (ix2 n d)
          * max ((((part x0 w0 p d + part x1 w1 p d) + part x2 w2 p d) + part x3 w3 p d + b1 (ix2 0 d)) * sc (ix2 0 d) + sh (ix2 0 d)) Cert.Spec.z)
        + b2 (ix2 0 n) := by
  unfold k0_pay1
  refine (head_apply _ _ _ p n).trans ?_
  congr 1
  refine Finset.sum_congr rfl fun d _ => ?_
  congr 1
  refine (act_apply _ _ _ _ p d).trans ?_
  unfold k0_pay2 k0_pay3
  exact congrArg₂ max (congrArg₂ (· + ·) (congrArg₂ (· * ·) (congrArg₂ (· + ·) (congrArg₂ (· + ·) (congrArg₂ (· + ·) (congrArg₂ (· + ·)
    (part_apply x0 w0 p d) (part_apply x1 w1 p d)) (part_apply x2 w2 p d)) (part_apply x3 w3 p d)) rfl) rfl) rfl) rfl

end Cert.KernelIdeal.Payload

end
-- ==== Proof.KernelIdealValue.lean ====
/-
  The result array of the fused kernel's program as one function of the argument arrays, on the extended reals.

  Before the region the activation is transposed to `[7, 7, 128, 2048]` and reshaped to `[49, 128, 2048]`, so entry
  `(s, b, c)` of the array the four activation windows read is `x[b, c, s / 7, s % 7]`, and the second weight matrix
  is transposed.  At grid point `t` window `k` of the activation holds rows `32 t … 32 t + 31` of channel slice `k`,
  window `4 + k` rows `512 k …` of the first weight matrix, and the output window rows `32 t …` of the result.  So what
  point `t` writes back is block `t` of the scores `G`; the four blocks cover the result.
-/
import proofs.«179224_g2000702530078706_pallasbulk_22_26_alg».proof.Proof.KernelIdealRun
import proofs.«179224_g2000702530078706_pallasbulk_22_26_alg».proof.Proof.KernelIdealPayload
import Idealize.ShloMosaic.Lib.StableHlo.Run
import Idealize.ShloMosaic.Lib.ValueLayout

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The argument arrays, as functions of their indices -/

abbrev X (c : Dev nD) : S128x2048x7x7.Idx → EReal := m ((c : Thread nD τ).loc main_arg0)
abbrev W1 (c : Dev nD) : S2048x512.Idx → EReal := m ((c : Thread nD τ).loc main_arg1)
abbrev B1 (c : Dev nD) : S1x512.Idx → EReal := m ((c : Thread nD τ).loc main_arg2)
abbrev SC (c : Dev nD) : S1x512.Idx → EReal := m ((c : Thread nD τ).loc main_arg3)
abbrev SH (c : Dev nD) : S1x512.Idx → EReal := m ((c : Thread nD τ).loc main_arg4)
abbrev W2 (c : Dev nD) : S512x1000.Idx → EReal := m ((c : Thread nD τ).loc main_arg5)
abbrev B2 (c : Dev nD) : S1x1000.Idx → EReal := m ((c : Thread nD τ).loc main_arg6)

/-- The scores of the launch's argument arrays. -/
abbrev scores (c : Dev nD) : S128x1000.Idx → EReal :=
  Cert.Spec.G (X m c) (W1 m c) (B1 m c) (SC m c) (SH m c) (W2 m c) (B2 m c)

/-! ## The two arrays the host operations write before the region -/

theorem V_xt (c : Dev nD) : (V m c main_call0_v1 : S49x128x2048.Idx → EReal)
    = shapeCast S49x128x2048 (transpose S7x7x128x2048 [2, 3, 0, 1] (X m c) transposes_S128x2048x7x7_S7x7x128x2048_2_3_0_1)
        shapeCasts_S7x7x128x2048_S49x128x2048 := by
  dsimp only [V, hostOps0]; after_results; rfl

theorem V_w2t (c : Dev nD) : (V m c main_call0_v2 : S1000x512.Idx → EReal)
    = transpose S1000x512 [1, 0] (W2 m c) transposes_S512x1000_S1000x512_1_0 := by
  dsimp only [V, hostOps0]; after_results; rfl

/-- Entry `(s, b, ch)` of the transposed and reshaped activation is `x[b, ch, s / 7, s % 7]`. -/
theorem xt_apply (c : Dev nD) (s : Fin 49) (b : Fin 128) (ch : Fin 2048) :
    (V m c main_call0_v1 : S49x128x2048.Idx → EReal) (ix3 s b ch) = X m c (ix4 b ch (Cert.Spec.row s) (Cert.Spec.col s)) := by
  rw [V_xt]
  refine (shapeCast_apply _ _ (ix3 s b ch) (ix4 (Cert.Spec.row s) (Cert.Spec.col s) b ch) ?_).trans ?_
  · rw [Shape.rowMajor_val_four, Shape.rowMajor_val_three]
    show ((s.val / 7 * 7 + s.val % 7) * 128 + b.val) * 2048 + ch.val = (s.val * 128 + b.val) * 2048 + ch.val
    have : s.val / 7 * 7 + s.val % 7 = s.val := by omega
    rw [this]
  · exact transpose_apply _ _ _ _ _ fun a => match a with | ⟨0, _⟩ => rfl | ⟨1, _⟩ => rfl | ⟨2, _⟩ => rfl | ⟨3, _⟩ => rfl

/-- Entry `(n, d)` of the transposed second weight matrix is `w2[d, n]`. -/
theorem w2t_apply (c : Dev nD) (n : Fin 1000) (d : Fin 512) :
    (V m c main_call0_v2 : S1000x512.Idx → EReal) (ix2 n d) = W2 m c (ix2 d n) := by
  rw [V_w2t]; exact transpose_ix2_apply _ _ n d

/-! ## The windows' index maps over the grid -/

theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 1)
    ∧ (win0_2.index t (0 : Fin 3) = 0 ∧ win0_2.index t (1 : Fin 3) = t.val ∧ win0_2.index t (2 : Fin 3) = 2)
    ∧ (win0_3.index t (0 : Fin 3) = 0 ∧ win0_3.index t (1 : Fin 3) = t.val ∧ win0_3.index t (2 : Fin 3) = 3)
    ∧ (win0_4.index t (0 : Fin 2) = 0 ∧ win0_4.index t (1 : Fin 2) = 0)
    ∧ (win0_5.index t (0 : Fin 2) = 1 ∧ win0_5.index t (1 : Fin 2) = 0)
    ∧ (win0_6.index t (0 : Fin 2) = 2 ∧ win0_6.index t (1 : Fin 2) = 0)
    ∧ (win0_7.index t (0 : Fin 2) = 3 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0) :=
  (by decide +kernel : ∀ t : Fin grid0.N, _)

/-- Row `p` of the block at point `t`, among the 128 batch rows. -/
abbrev rowOf (t : Fin cfg0.N) (p : Fin 32) : Fin 128 :=
  ⟨t.val * 32 + p.val, by have ht : t.val < 4 := lt_of_lt_of_eq t.isLt N_0; have := p.isLt; omega⟩

/-! ## The input blocks, read at an index -/

theorem blk_x0 (c : Dev nD) (t : Fin cfg0.N) (s : Fin 49) (p : Fin 32) (j : Fin 512) :
    iblk m c 0 t (ix3 s p j) = X m c (ix4 (rowOf t p) (Cert.Spec.chan 0 j) (Cert.Spec.row s) (Cert.Spec.col s)) := by
  have e : ((cfg0.win 0).blk t).view.emb (ix3 s p j) = ix3 s (rowOf t p) (Cert.Spec.chan 0 j) := by
    obtain ⟨e0, e1, e2⟩ := (idx_facts t).1
    funext a; apply Fin.ext
    match a with
    | ⟨0, _⟩ => show win0_0.index t (0 : Fin 3) * 49 + 1 * s.val = s.val; omega
    | ⟨1, _⟩ => show win0_0.index t (1 : Fin 3) * 32 + 1 * p.val = t.val * 32 + p.val; omega
    | ⟨2, _⟩ => show win0_0.index t (2 : Fin 3) * 512 + 1 * j.val = 0 * 512 + j.val; omega
  show (V m c main_call0_v1 : S49x128x2048.Idx → EReal) (((cfg0.win 0).blk t).view.emb (ix3 s p j)) = _
  rw [e]; exact xt_apply m c s (rowOf t p) (Cert.Spec.chan 0 j)

theorem blk_x1 (c : Dev nD) (t : Fin cfg0.N) (s : Fin 49) (p : Fin 32) (j : Fin 512) :
    iblk m c 1 t (ix3 s p j) = X m c (ix4 (rowOf t p) (Cert.Spec.chan 1 j) (Cert.Spec.row s) (Cert.Spec.col s)) := by
  have e : ((cfg0.win 1).blk t).view.emb (ix3 s p j) = ix3 s (rowOf t p) (Cert.Spec.chan 1 j) := by
    obtain ⟨e0, e1, e2⟩ := (idx_facts t).2.1
    funext a; apply Fin.ext
    match a with
    | ⟨0, _⟩ => show win0_1.index t (0 : Fin 3) * 49 + 1 * s.val = s.val; omega
    | ⟨1, _⟩ => show win0_1.index t (1 : Fin 3) * 32 + 1 * p.val = t.val * 32 + p.val; omega
    | ⟨2, _⟩ => show win0_1.index t (2 : Fin 3) * 512 + 1 * j.val = 1 * 512 + j.val; omega
  show (V m c main_call0_v1 : S49x128x2048.Idx → EReal) (((cfg0.win 1).blk t).view.emb (ix3 s p j)) = _
  rw [e]; exact xt_apply m c s (rowOf t p) (Cert.Spec.chan 1 j)

theorem blk_x2 (c : Dev nD) (t : Fin cfg0.N) (s : Fin 49) (p : Fin 32) (j : Fin 512) :
    iblk m c 2 t (ix3 s p j) = X m c (ix4 (rowOf t p) (Cert.Spec.chan 2 j) (Cert.Spec.row s) (Cert.Spec.col s)) := by
  have e : ((cfg0.win 2).blk t).view.emb (ix3 s p j) = ix3 s (rowOf t p) (Cert.Spec.chan 2 j) := by
    obtain ⟨e0, e1, e2⟩ := (idx_facts t).2.2.1
    funext a; apply Fin.ext
    match a with
    | ⟨0, _⟩ => show win0_2.index t (0 : Fin 3) * 49 + 1 * s.val = s.val; omega
    | ⟨1, _⟩ => show win0_2.index t (1 : Fin 3) * 32 + 1 * p.val = t.val * 32 + p.val; omega
    | ⟨2, _⟩ => show win0_2.index t (2 : Fin 3) * 512 + 1 * j.val = 2 * 512 + j.val; omega
  show (V m c main_call0_v1 : S49x128x2048.Idx → EReal) (((cfg0.win 2).blk t).view.emb (ix3 s p j)) = _
  rw [e]; exact xt_apply m c s (rowOf t p) (Cert.Spec.chan 2 j)

theorem blk_x3 (c : Dev nD) (t : Fin cfg0.N) (s : Fin 49) (p : Fin 32) (j : Fin 512) :
    iblk m c 3 t (ix3 s p j) = X m c (ix4 (rowOf t p) (Cert.Spec.chan 3 j) (Cert.Spec.row s) (Cert.Spec.col s)) := by
  have e : ((cfg0.win 3).blk t).view.emb (ix3 s p j) = ix3 s (rowOf t p) (Cert.Spec.chan 3 j) := by
    obtain ⟨e0, e1, e2⟩ := (idx_facts t).2.2.2.1
    funext a; apply Fin.ext
    match a with
    | ⟨0, _⟩ => show win0_3.index t (0 : Fin 3) * 49 + 1 * s.val = s.val; omega
    | ⟨1, _⟩ => show win0_3.index t (1 : Fin 3) * 32 + 1 * p.val = t.val * 32 + p.val; omega
    | ⟨2, _⟩ => show win0_3.index t (2 : Fin 3) * 512 + 1 * j.val = 3 * 512 + j.val; omega
  show (V m c main_call0_v1 : S49x128x2048.Idx → EReal) (((cfg0.win 3).blk t).view.emb (ix3 s p j)) = _
  rw [e]; exact xt_apply m c s (rowOf t p) (Cert.Spec.chan 3 j)

theorem blk_w0 (c : Dev nD) (t : Fin cfg0.N) (j : Fin 512) (d : Fin 512) :
    iblk m c 4 t (ix2 j d) = W1 m c (ix2 (Cert.Spec.chan 0 j) d) := by
  have e : ((cfg0.win 4).blk t).view.emb (ix2 j d) = ix2 (Cert.Spec.chan 0 j) d := by
    obtain ⟨e0, e1⟩ := (idx_facts t).2.2.2.2.1
    funext a; apply Fin.ext
    match a with
    | ⟨0, _⟩ => show win0_4.index t (0 : Fin 2) * 512 + 1 * j.val = 0 * 512 + j.val; omega
    | ⟨1, _⟩ => show win0_4.index t (1 : Fin 2) * 512 + 1 * d.val = d.val; omega
  show (V m c main_arg1 : S2048x512.Idx → EReal) (((cfg0.win 4).blk t).view.emb (ix2 j d)) = _
  rw [e, V_main_arg1]

theorem blk_w1 (c : Dev nD) (t : Fin cfg0.N) (j : Fin 512) (d : Fin 512) :
    iblk m c 5 t (ix2 j d) = W1 m c (ix2 (Cert.Spec.chan 1 j) d) := by
  have e : ((cfg0.win 5).blk t).view.emb (ix2 j d) = ix2 (Cert.Spec.chan 1 j) d := by
    obtain ⟨e0, e1⟩ := (idx_facts t).2.2.2.2.2.1
    funext a; apply Fin.ext
    match a with
    | ⟨0, _⟩ => show win0_5.index t (0 : Fin 2) * 512 + 1 * j.val = 1 * 512 + j.val; omega
    | ⟨1, _⟩ => show win0_5.index t (1 : Fin 2) * 512 + 1 * d.val = d.val; omega
  show (V m c main_arg1 : S2048x512.Idx → EReal) (((cfg0.win 5).blk t).view.emb (ix2 j d)) = _
  rw [e, V_main_arg1]

theorem blk_w2 (c : Dev nD) (t : Fin cfg0.N) (j : Fin 512) (d : Fin 512) :
    iblk m c 6 t (ix2 j d) = W1 m c (ix2 (Cert.Spec.chan 2 j) d) := by
  have e : ((cfg0.win 6).blk t).view.emb (ix2 j d) = ix2 (Cert.Spec.chan 2 j) d := by
    obtain ⟨e0, e1⟩ := (idx_facts t).2.2.2.2.2.2.1
    funext a; apply Fin.ext
    match a with
    | ⟨0, _⟩ => show win0_6.index t (0 : Fin 2) * 512 + 1 * j.val = 2 * 512 + j.val; omega
    | ⟨1, _⟩ => show win0_6.index t (1 : Fin 2) * 512 + 1 * d.val = d.val; omega
  show (V m c main_arg1 : S2048x512.Idx → EReal) (((cfg0.win 6).blk t).view.emb (ix2 j d)) = _
  rw [e, V_main_arg1]

theorem blk_w3 (c : Dev nD) (t : Fin cfg0.N) (j : Fin 512) (d : Fin 512) :
    iblk m c 7 t (ix2 j d) = W1 m c (ix2 (Cert.Spec.chan 3 j) d) := by
  have e : ((cfg0.win 7).blk t).view.emb (ix2 j d) = ix2 (Cert.Spec.chan 3 j) d := by
    obtain ⟨e0, e1⟩ := (idx_facts t).2.2.2.2.2.2.2.1
    funext a; apply Fin.ext
    match a with
    | ⟨0, _⟩ => show win0_7.index t (0 : Fin 2) * 512 + 1 * j.val = 3 * 512 + j.val; omega
    | ⟨1, _⟩ => show win0_7.index t (1 : Fin 2) * 512 + 1 * d.val = d.val; omega
  show (V m c main_arg1 : S2048x512.Idx → EReal) (((cfg0.win 7).blk t).view.emb (ix2 j d)) = _
  rw [e, V_main_arg1]

theorem blk_B1 (c : Dev nD) (t : Fin cfg0.N) (u : Fin 1) (d : Fin 512) :
    iblk m c 8 t (ix2 u d) = B1 m c (ix2 u d) := by
  have e : ((cfg0.win 8).blk t).view.emb (ix2 u d) = ix2 u d := by
    obtain ⟨e0, e1⟩ := (idx_facts t).2.2.2.2.2.2.2.2.1
    funext a; apply Fin.ext
    match a with
    | ⟨0, _⟩ => show win0_8.index t (0 : Fin 2) * 1 + 1 * u.val = u.val; omega
    | ⟨1, _⟩ => show win0_8.index t (1 : Fin 2) * 512 + 1 * d.val = d.val; omega
  show (V m c main_arg2 : S1x512.Idx → EReal) (((cfg0.win 8).blk t).view.emb (ix2 u d)) = _
  rw [e, V_main_arg2]

theorem blk_SC (c : Dev nD) (t : Fin cfg0.N) (u : Fin 1) (d : Fin 512) :
    iblk m c 9 t (ix2 u d) = SC m c (ix2 u d) := by
  have e : ((cfg0.win 9).blk t).view.emb (ix2 u d) = ix2 u d := by
    obtain ⟨e0, e1⟩ := (idx_facts t).2.2.2.2.2.2.2.2.2.1
    funext a; apply Fin.ext
    match a with
    | ⟨0, _⟩ => show win0_9.index t (0 : Fin 2) * 1 + 1 * u.val = u.val; omega
    | ⟨1, _⟩ => show win0_9.index t (1 : Fin 2) * 512 + 1 * d.val = d.val; omega
  show (V m c main_arg3 : S1x512.Idx → EReal) (((cfg0.win 9).blk t).view.emb (ix2 u d)) = _
  rw [e, V_main_arg3]

theorem blk_SH (c : Dev nD) (t : Fin cfg0.N) (u : Fin 1) (d : Fin 512) :
    iblk m c 10 t (ix2 u d) = SH m c (ix2 u d) := by
  have e : ((cfg0.win 10).blk t).view.emb (ix2 u d) = ix2 u d := by
    obtain ⟨e0, e1⟩ := (idx_facts t).2.2.2.2.2.2.2.2.2.2.1
    funext a; apply Fin.ext
    match a with
    | ⟨0, _⟩ => show win0_10.index t (0 : Fin 2) * 1 + 1 * u.val = u.val; omega
    | ⟨1, _⟩ => show win0_10.index t (1 : Fin 2) * 512 + 1 * d.val = d.val; omega
  show (V m c main_arg4 : S1x512.Idx → EReal) (((cfg0.win 10).blk t).view.emb (ix2 u d)) = _
  rw [e, V_main_arg4]

theorem blk_W2 (c : Dev nD) (t : Fin cfg0.N) (n : Fin 1000) (d : Fin 512) :
    iblk m c 11 t (ix2 n d) = W2 m c (ix2 d n) := by
  have e : ((cfg0.win 11).blk t).view.emb (ix2 n d) = ix2 n d := by
    obtain ⟨e0, e1⟩ := (idx_facts t).2.2.2.2.2.2.2.2.2.2.2.1
    funext a; apply Fin.ext
    match a with
    | ⟨0, _⟩ => show win0_11.index t (0 : Fin 2) * 1000 + 1 * n.val = n.val; omega
    | ⟨1, _⟩ => show win0_11.index t (1 : Fin 2) * 512 + 1 * d.val = d.val; omega
  show (V m c main_call0_v2 : S1000x512.Idx → EReal) (((cfg0.win 11).blk t).view.emb (ix2 n d)) = _
  rw [e]; exact w2t_apply m c n d

theorem blk_B2 (c : Dev nD) (t : Fin cfg0.N) (u : Fin 1) (n : Fin 1000) :
    iblk m c 12 t (ix2 u n) = B2 m c (ix2 u n) := by
  have e : ((cfg0.win 12).blk t).view.emb (ix2 u n) = ix2 u n := by
    obtain ⟨e0, e1⟩ := (idx_facts t).2.2.2.2.2.2.2.2.2.2.2.2.1
    funext a; apply Fin.ext
    match a with
    | ⟨0, _⟩ => show win0_12.index t (0 : Fin 2) * 1 + 1 * u.val = u.val; omega
    | ⟨1, _⟩ => show win0_12.index t (1 : Fin 2) * 1000 + 1 * n.val = n.val; omega
  show (V m c main_arg6 : S1x1000.Idx → EReal) (((cfg0.win 12).blk t).view.emb (ix2 u n)) = _
  rw [e, V_main_arg6]

/-- A slice's contribution computed from its two blocks is the slice's share of the linear layer. -/
theorem part_0 (c : Dev nD) (t : Fin cfg0.N) (p : Fin 32) (d : Fin 512) :
    Payload.part (iblk m c 0 t) (iblk m c 4 t) p d = Cert.Spec.slice (X m c) (W1 m c) (rowOf t p) d 0 := by
  unfold Payload.part Cert.Spec.slice Cert.Spec.pooled
  refine Finset.sum_congr rfl fun j _ => ?_
  rw [blk_w0]
  refine congrArg₂ (· * ·) (congrArg₂ (· * ·) (Finset.sum_congr rfl fun s _ => blk_x0 m c t s p j) rfl) rfl

theorem part_1 (c : Dev nD) (t : Fin cfg0.N) (p : Fin 32) (d : Fin 512) :
    Payload.part (iblk m c 1 t) (iblk m c 5 t) p d = Cert.Spec.slice (X m c) (W1 m c) (rowOf t p) d 1 := by
  unfold Payload.part Cert.Spec.slice Cert.Spec.pooled
  refine Finset.sum_congr rfl fun j _ => ?_
  rw [blk_w1]
  refine congrArg₂ (· * ·) (congrArg₂ (· * ·) (Finset.sum_congr rfl fun s _ => blk_x1 m c t s p j) rfl) rfl

theorem part_2 (c : Dev nD) (t : Fin cfg0.N) (p : Fin 32) (d : Fin 512) :
    Payload.part (iblk m c 2 t) (iblk m c 6 t) p d = Cert.Spec.slice (X m c) (W1 m c) (rowOf t p) d 2 := by
  unfold Payload.part Cert.Spec.slice Cert.Spec.pooled
  refine Finset.sum_congr rfl fun j _ => ?_
  rw [blk_w2]
  refine congrArg₂ (· * ·) (congrArg₂ (· * ·) (Finset.sum_congr rfl fun s _ => blk_x2 m c t s p j) rfl) rfl

theorem part_3 (c : Dev nD) (t : Fin cfg0.N) (p : Fin 32) (d : Fin 512) :
    Payload.part (iblk m c 3 t) (iblk m c 7 t) p d = Cert.Spec.slice (X m c) (W1 m c) (rowOf t p) d 3 := by
  unfold Payload.part Cert.Spec.slice Cert.Spec.pooled
  refine Finset.sum_congr rfl fun j _ => ?_
  rw [blk_w3]
  refine congrArg₂ (· * ·) (congrArg₂ (· * ·) (Finset.sum_congr rfl fun s _ => blk_x3 m c t s p j) rfl) rfl

/-! ## What a point writes back, and the result array -/

theorem hz3 : (![0, 0, 0] : Fin 3 → Nat) = fun _ => 0 := funext fun a => by fin_cases a <;> rfl

/-- What point `t` writes back is block `t` of the scores. -/
theorem flushed_eq (c : Dev nD) (t : Fin cfg0.N) :
    (dat m c).flushed 13 t = ((cfg0.win 13).blk t).view.read (Elt Ideal) (scores m c) := by
  show (cfg0.win 13).cut (grid0.coords t) ((dat m c).after 13 t) = _
  rw [after_13]
  unfold outBlock
  rw [View.canon_unit_zero Cert.LibBlock.hz]
  simp only [View.ld_unit_zero (S := S49x32x512) hz3, View.ld_unit_zero (S := S512x512) Cert.LibBlock.hz,
    View.ld_unit_zero (S := S1x512) Cert.LibBlock.hz, View.ld_unit_zero (S := S1000x512) Cert.LibBlock.hz,
    View.ld_unit_zero (S := S1x1000) Cert.LibBlock.hz]
  funext y
  obtain ⟨p, n, rfl⟩ : ∃ (p : Fin 32) (n : Fin 1000), y = ix2 p n := ⟨y 0, y 1, eq_ix2 y⟩
  have e : ((cfg0.win 13).blk t).view.emb (ix2 p n) = ix2 (rowOf t p) n := by
    obtain ⟨e0, e1⟩ := (idx_facts t).2.2.2.2.2.2.2.2.2.2.2.2.2
    funext a; apply Fin.ext
    match a with
    | ⟨0, _⟩ => show win0_13.index t (0 : Fin 2) * 32 + 1 * p.val = t.val * 32 + p.val; omega
    | ⟨1, _⟩ => show win0_13.index t (1 : Fin 2) * 1000 + 1 * n.val = n.val; omega
  show Gen.k0_pay1 (Gen.k0_pay2 (iblk m c 0 t) (iblk m c 4 t) (iblk m c 1 t) (iblk m c 5 t) (iblk m c 2 t) (iblk m c 6 t)) (Gen.k0_pay3 (iblk m c 3 t))
      (iblk m c 7 t) (iblk m c 8 t) (iblk m c 9 t) (iblk m c 10 t) (iblk m c 11 t) (iblk m c 12 t) (ix2 p n)
    = scores m c (((cfg0.win 13).blk t).view.emb (ix2 p n))
  rw [e]
  refine (Payload.pay_apply _ _ _ _ _ _ _ _ _ _ _ _ _ p n).trans ?_
  refine Eq.trans ?_ (Cert.Spec.G_sliced (X m c) (W1 m c) (B1 m c) (SC m c) (SH m c) (W2 m c) (B2 m c) (rowOf t p) n)
  rw [blk_B2]
  refine congrArg₂ (· + ·) (Finset.sum_congr rfl fun d _ => ?_) rfl
  rw [blk_W2, part_0, part_1, part_2, part_3, blk_B1, blk_SC, blk_SH]

/-- An index of the result is in point `t`'s block iff each coordinate is in the block's range. -/
theorem mem_blk (t : Fin cfg0.N) (i : S128x1000.Idx) :
    i ∈ ((cfg0.win 13).blk t).view.set ↔ ∀ a : Fin 2, win0_13.index t a * S32x1000.size a ≤ (i a).val ∧ (i a).val < win0_13.index t a * S32x1000.size a + S32x1000.size a := by
  show i ∈ ((View.whole main_v0).slice (win0_13.rect t)).set ↔ _
  rw [View.set_slice_whole, Rect.mem_set_unit]
  exact Iff.rfl

/-- Row `r` of the result is written back by point `r / 32`. -/
theorem cover (i : S128x1000.Idx) : ∃ t : Fin cfg0.N, (cfg0.win 13).flush t = true ∧ i ∈ ((cfg0.win 13).blk t).view.set := by
  have hi0 : (i 0).val < 128 := (i 0).isLt
  have hi1 : (i 1).val < 1000 := (i 1).isLt
  have hN : cfg0.N = 4 := N_0
  refine ⟨⟨(i 0).val / 32, lt_of_lt_of_eq (by omega : (i 0).val / 32 < 4) hN.symm⟩, flush0_13 _, ?_⟩
  rw [mem_blk]
  obtain ⟨e0, e1⟩ := (idx_facts ⟨(i 0).val / 32, lt_of_lt_of_eq (by omega : (i 0).val / 32 < 4) hN.symm⟩).2.2.2.2.2.2.2.2.2.2.2.2.2
  intro a
  match a with
  | ⟨0, _⟩ =>
    show win0_13.index _ (0 : Fin 2) * 32 ≤ (i 0).val ∧ (i 0).val < win0_13.index _ (0 : Fin 2) * 32 + 32
    rw [e0]; show (i 0).val / 32 * 32 ≤ (i 0).val ∧ (i 0).val < (i 0).val / 32 * 32 + 32; omega
  | ⟨1, _⟩ =>
    show win0_13.index _ (1 : Fin 2) * 1000 ≤ (i 1).val ∧ (i 1).val < win0_13.index _ (1 : Fin 2) * 1000 + 1000
    rw [e1]; omega

/-- The result array after the run is the scores. -/
theorem final (c : Dev nD) : (dat m c).arrAt 13 cfg0.N = scores m c :=
  (dat m c).arrAt_eq_of_cover 13 (scores m c) (fun t _ => flushed_eq m c t) cover

/-- The run: the result array ends at the scores of the launch's arguments, the arguments unchanged. -/
theorem run : θ_run defs (onTc (τ := τ) (main (F := Ideal))) ⟨m, fun _ => 0, ρ⟩ (fun r => ∀ c : Dev nD,
      r.2.mem ((c.tc : Thread nD τ).loc main_v0) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c), (h c).2⟩) (run_value m ρ)

end Cert.KernelIdeal.Value

end
-- ==== Proof.ReferenceRun.lean ====
/-
  The reference program's run, read at its result.  The program is a reshape of the activation, the pooling kernel's
  region, two pads (the second weight matrix and the second bias, to 1024 columns), the head kernel's region, and a
  slice of the padded scores back to 1000 columns.  The generated frame of this program threads the buffers' contents
  through these five segments; here the same launch is read at the result buffer as well as at the arguments: the result
  ends at the last boundary's contents of its buffer.
-/
import proofs.«179224_g2000702530078706_pallasbulk_22_26_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates with its result buffer at the contents the five segments
    leave there, and its argument arrays as launched. -/
theorem run_result : θ_run defs (onTc (τ := τ) (main (F := F))) ⟨m, fun _ => 0, ρ⟩ (fun r => ∀ c : Dev nD,
      r.2.mem ((c.tc : Thread nD τ).loc main_v1) = W5 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The frame: the reference runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.ReferenceIdeal.RefRun

end
-- ==== Proof.LibLanes3.lean ====
/-
  A reduction over the last axis of a rank-3 vector, read at an index of the rank-2 result.

  * `multiReduction_add_lanes3_apply`: the sum over the last axis of an `[a, b, c]` vector, read at `(p, q)`, is
    `∑ k : Fin c, src (p, q, k)`;
  * `multiReduction_maximumf_lanes3_apply`: the maximum over the last axis, read at `(p, q)`, is the fold of `max`
    from the accumulator's value over `k : Fin c` of `src (p, q, k)`.
  Both hold for any extents and any float format: they are the one-axis readings of the ideal values' reductions with the
  inserted index spelt by its three coordinates.
-/
import Idealize.ShloMosaic.Lib.ValueIdx
import Idealize.ShloMosaic.PureOps.Ideal.Laws

noncomputable section

open scoped BigOperators

namespace Cert.LibLanes3

open Idealize.ShloMosaic Idealize.ShloMosaic.ValueIdx

/-- The index a last-axis reduction of a rank-3 shape inserts coordinate `k` into, at `(p, q)`, is `(p, q, k)`. -/
theorem lift_lanes3 {a b c : ℕ} (h : (⟨3, ![a, b, c]⟩ : Shape).Reduces [2] ⟨2, ![a, b]⟩) (p : Fin a) (q : Fin b)
    (k : Fin c) : h.lift (ix2 p q) k = ix3 p q k :=
  funext fun ax => Fin.ext (by match ax with | ⟨0, _⟩ => rfl | ⟨1, _⟩ => rfl | ⟨2, _⟩ => rfl)

/-- The sum over the last axis of an `[a, b, c]` vector, read at `(p, q)`: `∑ k, src (p, q, k)`. -/
theorem multiReduction_add_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_lanes3 h p q k))

/-- The maximum over the last axis of an `[a, b, c]` vector, read at `(p, q)`: the fold of `max` from the
    accumulator's value over `k` of `src (p, q, k)`. -/
theorem multiReduction_maximumf_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans
    (congrArg (fun f => (Finset.univ : Finset (Fin c)).fold max (FloatOps.ofBits φ acc) f)
      (funext fun k => congrArg src (lift_lanes3 h p q k)))

end Cert.LibLanes3

end
-- ==== Proof.ReferencePayload.lean ====
/-
  The reference's two kernels read at an index, on the extended reals.  The pooling kernel sums a block's 49 positions
  (the last axis) and scales by the rounded 1/49.  The head kernel is the linear layer over all 2048 channels at once,
  bias, scale, shift, rectifier, then the classifier against the weight matrix padded to 1024 columns, plus the padded
  bias.
-/
import proofs.«179224_g2000702530078706_pallasbulk_22_26_alg».proof.Proof.Gen.ReferenceIdeal.Skeleton
import proofs.«179224_g2000702530078706_pallasbulk_22_26_alg».proof.Proof.LibBlock
import proofs.«179224_g2000702530078706_pallasbulk_22_26_alg».proof.Proof.LibLanes3
import proofs.«179224_g2000702530078706_pallasbulk_22_26_alg».proof.Proof.Spec
import Idealize.ShloMosaic.Lib.ValueLayout
import Idealize.ShloMosaic.Lib.Pipeline.Value

noncomputable section

open scoped BigOperators

namespace Cert.ReferenceIdeal.Payload

open Cert.ReferenceIdeal Cert.ReferenceIdeal.Gen
open Idealize.ShloMosaic Idealize.ShloMosaic.ValueIdx

/-- The pooling kernel's payload at `(b, j)` of its output block. -/
theorem pool_apply (v0 : FVec Ideal S128x128x49 .f32) (b : Fin 128) (j : Fin 128) :
    k0_pay1 v0 (ix2 b j) = (∑ s : Fin 49, v0 (ix3 b j s)) * Cert.Spec.κ := by
  unfold k0_pay1
  rw [mulf_apply]
  refine congrArg₂ (· * ·) ((Cert.LibLanes3.multiReduction_add_lanes3_apply _ _ _ _ _ b j).trans ?_) rfl
  simp only [shapeCast_self]

/-- The head kernel's payload at `(b, n)` of its output block. -/
theorem head_apply (feat : FVec Ideal S128x2048 .f32) (w1 : FVec Ideal S2048x512 .f32) (b1 sc sh : FVec Ideal S1x512 .f32)
    (w2p : FVec Ideal S512x1024 .f32) (b2p : FVec Ideal S1x1024 .f32) (b : Fin 128) (n : Fin 1024) :
    k1_pay1 feat w1 b1 sc sh w2p b2p (ix2 b n)
      = (∑ d : Fin 512, max (((∑ c : Fin 2048, feat (ix2 b c) * w1 (ix2 c d)) + b1 (ix2 0 d)) * sc (ix2 0 d) + sh (ix2 0 d)) Cert.Spec.z
          * w2p (ix2 d n)) + b2p (ix2 0 n) := by
  unfold k1_pay1
  rw [addf_apply]
  refine (congrArg₂ (· + ·) (Cert.LibBlock.matmul_zero_ix2 dot_S128x512_S512x1024_S128x1024_1_0_0_1_n_n rfl rfl rfl rfl rfl rfl none _ _ b n)
    (broadcastTo_1b_ab_apply _ _ b n)).trans ?_
  simp only [shapeCast_self]
  congr 1
  refine Finset.sum_congr rfl fun d _ => ?_
  refine congrArg₂ (· * ·) ?_ rfl
  rw [maximumf_apply, addf_apply, mulf_apply, addf_apply, broadcastTo_1b_ab_apply, broadcastTo_1b_ab_apply, broadcastTo_1b_ab_apply,
    broadcast_apply]
  exact congrArg₂ max (congrArg₂ (· + ·) (congrArg₂ (· * ·) (congrArg₂ (· + ·)
    (Cert.LibBlock.matmul_zero_ix2 dot_S128x2048_S2048x512_S128x512_1_0_0_1_n_n rfl rfl rfl rfl rfl rfl none _ _ b d) rfl) rfl) rfl) rfl

end Cert.ReferenceIdeal.Payload

end
-- ==== Proof.ReferenceValue.lean ====
/-
  The reference program's result as one function of the argument arrays, on the extended reals.

  The activation is reshaped to `[128, 2048, 49]`: entry `(b, c, s)` is `x[b, c, s / 7, s % 7]`.  The pooling region has
  16 grid points, point `t` pooling channels `128 t … 128 t + 127` of every batch row; its blocks cover the pooled
  features.  The head region has one grid point whose blocks are the whole arrays.  The second weight matrix and bias
  are padded with zeros from 1000 to 1024 columns before it and the scores cut back to 1000 columns after it, so a
  score at a column below 1000 never meets the padding.
-/
import proofs.«179224_g2000702530078706_pallasbulk_22_26_alg».proof.Proof.ReferenceRun
import proofs.«179224_g2000702530078706_pallasbulk_22_26_alg».proof.Proof.ReferencePayload
import Idealize.ShloMosaic.Lib.StableHlo.Run
import Idealize.ShloMosaic.Lib.ValueLayout
import Idealize.ShloMosaic.Lib.KernelVsHost

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

/-! ## The two regions, at any entry contents -/

section Regions
variable (V : (c : Dev nD) → (b : Ref sig .tc) → Buf (Elt Ideal) ((c : Thread nD τ).loc b))

theorem hz3 : (![0, 0, 0] : Fin 3 → Nat) = fun _ => 0 := funext fun a => by fin_cases a <;> rfl

/-- The pooled feature at `(b, ch)` of a reshaped activation. -/
def featAt (x3 : S128x2048x49.Idx → EReal) (b : Fin 128) (ch : Fin 2048) : EReal :=
  (∑ s : Fin 49, x3 (ix3 b ch s)) * Cert.Spec.κ

/-- The pooled features of a reshaped activation. -/
def featOf (x3 : S128x2048x49.Idx → EReal) : S128x2048.Idx → EReal := fun i => featAt x3 (i 0) (i 1)

/-- The pooled features of the reshaped activation the pooling region finds. -/
abbrev feat (c : Dev nD) : S128x2048.Idx → EReal := featOf (V c main_call0_v0)

theorem idx_facts0 : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = t.val) :=
  (by decide +kernel : ∀ t : Fin grid0.N, _)

/-- Channel `j` of the pooling region's block at point `t`. -/
abbrev chOf (t : Fin cfg0.N) (j : Fin 128) : Fin 2048 :=
  ⟨t.val * 128 + j.val, by have ht : t.val < 16 := lt_of_lt_of_eq t.isLt N_0; have := j.isLt; omega⟩

/-- What point `t` of the pooling region writes back is block `t` of the pooled features. -/
theorem flushed0_eq (c : Dev nD) (t : Fin cfg0.N) :
    (dat0 V c).flushed 1 t = ((cfg0.win 1).blk t).view.read (Elt Ideal) (feat V c) := by
  show (cfg0.win 1).cut (grid0.coords t) ((dat0 V c).after 1 t) = _
  rw [after0_1]
  unfold out0_1
  rw [View.canon_unit_zero Cert.LibBlock.hz]
  simp only [View.ld_unit_zero (S := S128x128x49) hz3]
  funext y
  obtain ⟨b, j, rfl⟩ : ∃ (b : Fin 128) (j : Fin 128), y = ix2 b j := ⟨y 0, y 1, eq_ix2 y⟩
  obtain ⟨⟨a0, a1, a2⟩, e0, e1⟩ := idx_facts0 t
  have e : ((cfg0.win 1).blk t).view.emb (ix2 b j) = ix2 b (chOf t j) := by
    funext a; apply Fin.ext
    match a with
    | ⟨0, _⟩ => show win0_1.index t (0 : Fin 2) * 128 + 1 * b.val = b.val; omega
    | ⟨1, _⟩ => show win0_1.index t (1 : Fin 2) * 128 + 1 * j.val = t.val * 128 + j.val; omega
  show Gen.k0_pay1 (iblk0 V c 0 t) (ix2 b j) = feat V c (((cfg0.win 1).blk t).view.emb (ix2 b j))
  rw [e]
  refine (Payload.pool_apply _ b j).trans ?_
  show _ = featAt (V c main_call0_v0) b (chOf t j)
  unfold featAt
  refine congrArg₂ (· * ·) (Finset.sum_congr rfl fun s _ => ?_) rfl
  have e' : ((cfg0.win 0).blk t).view.emb (ix3 b j s) = ix3 b (chOf t j) s := by
    funext a; apply Fin.ext
    match a with
    | ⟨0, _⟩ => show win0_0.index t (0 : Fin 3) * 128 + 1 * b.val = b.val; omega
    | ⟨1, _⟩ => show win0_0.index t (1 : Fin 3) * 128 + 1 * j.val = t.val * 128 + j.val; omega
    | ⟨2, _⟩ => show win0_0.index t (2 : Fin 3) * 49 + 1 * s.val = s.val; omega
  show (V c main_call0_v0 : S128x2048x49.Idx → EReal) (((cfg0.win 0).blk t).view.emb (ix3 b j s)) = _
  rw [e']

theorem mem_blk0 (t : Fin cfg0.N) (i : S128x2048.Idx) :
    i ∈ ((cfg0.win 1).blk t).view.set ↔ ∀ a : Fin 2, win0_1.index t a * S128x128.size a ≤ (i a).val ∧ (i a).val < win0_1.index t a * S128x128.size a + S128x128.size a := by
  show i ∈ ((View.whole main_v0).slice (win0_1.rect t)).set ↔ _
  rw [View.set_slice_whole, Rect.mem_set_unit]
  exact Iff.rfl

/-- Channel `c` is pooled by point `c / 128`. -/
theorem cover0 (i : S128x2048.Idx) : ∃ t : Fin cfg0.N, (cfg0.win 1).flush t = true ∧ i ∈ ((cfg0.win 1).blk t).view.set := by
  have hi0 : (i 0).val < 128 := (i 0).isLt
  have hi1 : (i 1).val < 2048 := (i 1).isLt
  have hN : cfg0.N = 16 := N_0
  have hlt : (i 1).val / 128 < cfg0.N := lt_of_lt_of_eq (by omega : (i 1).val / 128 < 16) hN.symm
  refine ⟨⟨(i 1).val / 128, hlt⟩, flush0_1 _, ?_⟩
  rw [mem_blk0]
  obtain ⟨-, e0, e1⟩ := idx_facts0 ⟨(i 1).val / 128, hlt⟩
  intro a
  match a with
  | ⟨0, _⟩ =>
    show win0_1.index _ (0 : Fin 2) * 128 ≤ (i 0).val ∧ (i 0).val < win0_1.index _ (0 : Fin 2) * 128 + 128
    rw [e0]; omega
  | ⟨1, _⟩ =>
    show win0_1.index _ (1 : Fin 2) * 128 ≤ (i 1).val ∧ (i 1).val < win0_1.index _ (1 : Fin 2) * 128 + 128
    rw [e1]; show (i 1).val / 128 * 128 ≤ (i 1).val ∧ (i 1).val < (i 1).val / 128 * 128 + 128; omega

/-- The pooled features' array after the pooling region. -/
theorem final0 (c : Dev nD) : (dat0 V c).arrAt 1 cfg0.N = feat V c :=
  (dat0 V c).arrAt_eq_of_cover 1 (feat V c) (fun t _ => flushed0_eq V c t) cover0

/-- The padded score at `(b, n)` of pooled features, weights and biases. -/
def headAt (ft : S128x2048.Idx → EReal) (w1 : S2048x512.Idx → EReal) (b1 sc sh : S1x512.Idx → EReal) (w2p : S512x1024.Idx → EReal)
    (b2p : S1x1024.Idx → EReal) (b : Fin 128) (n : Fin 1024) : EReal :=
  (∑ d : Fin 512, max (((∑ ch : Fin 2048, ft (ix2 b ch) * w1 (ix2 ch d)) + b1 (ix2 0 d)) * sc (ix2 0 d) + sh (ix2 0 d)) Cert.Spec.z
      * w2p (ix2 d n)) + b2p (ix2 0 n)

/-- The padded scores. -/
def headOf (ft : S128x2048.Idx → EReal) (w1 : S2048x512.Idx → EReal) (b1 sc sh : S1x512.Idx → EReal) (w2p : S512x1024.Idx → EReal)
    (b2p : S1x1024.Idx → EReal) : S128x1024.Idx → EReal := fun i => headAt ft w1 b1 sc sh w2p b2p (i 0) (i 1)

/-- The padded scores of the arrays the head region finds. -/
abbrev head (c : Dev nD) : S128x1024.Idx → EReal :=
  headOf (V c main_v0) (V c main_arg1) (V c main_arg2) (V c main_arg3) (V c main_arg4) (V c main_call1_v0) (V c main_call1_v1)

theorem idx_facts1 : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

theorem blk1_0 (c : Dev nD) (t : Fin cfg1.N) (a : Fin 128) (b : Fin 2048) :
    iblk1 V c 0 t (ix2 a b) = (V c main_v0 : S128x2048.Idx → EReal) (ix2 a b) := by
  have e : ((cfg1.win 0).blk t).view.emb (ix2 a b) = ix2 a b := by
    obtain ⟨e0, e1⟩ := (idx_facts1 t).1
    funext x; apply Fin.ext
    match x with
    | ⟨0, _⟩ => show win1_0.index t (0 : Fin 2) * 128 + 1 * a.val = a.val; omega
    | ⟨1, _⟩ => show win1_0.index t (1 : Fin 2) * 2048 + 1 * b.val = b.val; omega
  show (V c main_v0 : S128x2048.Idx → EReal) (((cfg1.win 0).blk t).view.emb (ix2 a b)) = _
  rw [e]

theorem blk1_1 (c : Dev nD) (t : Fin cfg1.N) (a : Fin 2048) (b : Fin 512) :
    iblk1 V c 1 t (ix2 a b) = (V c main_arg1 : S2048x512.Idx → EReal) (ix2 a b) := by
  have e : ((cfg1.win 1).blk t).view.emb (ix2 a b) = ix2 a b := by
    obtain ⟨e0, e1⟩ := (idx_facts1 t).2.1
    funext x; apply Fin.ext
    match x with
    | ⟨0, _⟩ => show win1_1.index t (0 : Fin 2) * 2048 + 1 * a.val = a.val; omega
    | ⟨1, _⟩ => show win1_1.index t (1 : Fin 2) * 512 + 1 * b.val = b.val; omega
  show (V c main_arg1 : S2048x512.Idx → EReal) (((cfg1.win 1).blk t).view.emb (ix2 a b)) = _
  rw [e]

theorem blk1_2 (c : Dev nD) (t : Fin cfg1.N) (a : Fin 1) (b : Fin 512) :
    iblk1 V c 2 t (ix2 a b) = (V c main_arg2 : S1x512.Idx → EReal) (ix2 a b) := by
  have e : ((cfg1.win 2).blk t).view.emb (ix2 a b) = ix2 a b := by
    obtain ⟨e0, e1⟩ := (idx_facts1 t).2.2.1
    funext x; apply Fin.ext
    match x with
    | ⟨0, _⟩ => show win1_2.index t (0 : Fin 2) * 1 + 1 * a.val = a.val; omega
    | ⟨1, _⟩ => show win1_2.index t (1 : Fin 2) * 512 + 1 * b.val = b.val; omega
  show (V c main_arg2 : S1x512.Idx → EReal) (((cfg1.win 2).blk t).view.emb (ix2 a b)) = _
  rw [e]

theorem blk1_3 (c : Dev nD) (t : Fin cfg1.N) (a : Fin 1) (b : Fin 512) :
    iblk1 V c 3 t (ix2 a b) = (V c main_arg3 : S1x512.Idx → EReal) (ix2 a b) := by
  have e : ((cfg1.win 3).blk t).view.emb (ix2 a b) = ix2 a b := by
    obtain ⟨e0, e1⟩ := (idx_facts1 t).2.2.2.1
    funext x; apply Fin.ext
    match x with
    | ⟨0, _⟩ => show win1_3.index t (0 : Fin 2) * 1 + 1 * a.val = a.val; omega
    | ⟨1, _⟩ => show win1_3.index t (1 : Fin 2) * 512 + 1 * b.val = b.val; omega
  show (V c main_arg3 : S1x512.Idx → EReal) (((cfg1.win 3).blk t).view.emb (ix2 a b)) = _
  rw [e]

theorem blk1_4 (c : Dev nD) (t : Fin cfg1.N) (a : Fin 1) (b : Fin 512) :
    iblk1 V c 4 t (ix2 a b) = (V c main_arg4 : S1x512.Idx → EReal) (ix2 a b) := by
  have e : ((cfg1.win 4).blk t).view.emb (ix2 a b) = ix2 a b := by
    obtain ⟨e0, e1⟩ := (idx_facts1 t).2.2.2.2.1
    funext x; apply Fin.ext
    match x with
    | ⟨0, _⟩ => show win1_4.index t (0 : Fin 2) * 1 + 1 * a.val = a.val; omega
    | ⟨1, _⟩ => show win1_4.index t (1 : Fin 2) * 512 + 1 * b.val = b.val; omega
  show (V c main_arg4 : S1x512.Idx → EReal) (((cfg1.win 4).blk t).view.emb (ix2 a b)) = _
  rw [e]

theorem blk1_5 (c : Dev nD) (t : Fin cfg1.N) (a : Fin 512) (b : Fin 1024) :
    iblk1 V c 5 t (ix2 a b) = (V c main_call1_v0 : S512x1024.Idx → EReal) (ix2 a b) := by
  have e : ((cfg1.win 5).blk t).view.emb (ix2 a b) = ix2 a b := by
    obtain ⟨e0, e1⟩ := (idx_facts1 t).2.2.2.2.2.1
    funext x; apply Fin.ext
    match x with
    | ⟨0, _⟩ => show win1_5.index t (0 : Fin 2) * 512 + 1 * a.val = a.val; omega
    | ⟨1, _⟩ => show win1_5.index t (1 : Fin 2) * 1024 + 1 * b.val = b.val; omega
  show (V c main_call1_v0 : S512x1024.Idx → EReal) (((cfg1.win 5).blk t).view.emb (ix2 a b)) = _
  rw [e]

theorem blk1_6 (c : Dev nD) (t : Fin cfg1.N) (a : Fin 1) (b : Fin 1024) :
    iblk1 V c 6 t (ix2 a b) = (V c main_call1_v1 : S1x1024.Idx → EReal) (ix2 a b) := by
  have e : ((cfg1.win 6).blk t).view.emb (ix2 a b) = ix2 a b := by
    obtain ⟨e0, e1⟩ := (idx_facts1 t).2.2.2.2.2.2.1
    funext x; apply Fin.ext
    match x with
    | ⟨0, _⟩ => show win1_6.index t (0 : Fin 2) * 1 + 1 * a.val = a.val; omega
    | ⟨1, _⟩ => show win1_6.index t (1 : Fin 2) * 1024 + 1 * b.val = b.val; omega
  show (V c main_call1_v1 : S1x1024.Idx → EReal) (((cfg1.win 6).blk t).view.emb (ix2 a b)) = _
  rw [e]

/-- What the head region's one point writes back is the padded scores. -/
theorem flushed1_eq (c : Dev nD) (t : Fin cfg1.N) :
    (dat1 V c).flushed 7 t = ((cfg1.win 7).blk t).view.read (Elt Ideal) (head V c) := by
  show (cfg1.win 7).cut (grid1.coords t) ((dat1 V c).after 7 t) = _
  rw [after1_7]
  unfold out1_7
  rw [View.canon_unit_zero Cert.LibBlock.hz]
  simp only [View.ld_unit_zero (S := S128x2048) Cert.LibBlock.hz, View.ld_unit_zero (S := S2048x512) Cert.LibBlock.hz,
    View.ld_unit_zero (S := S1x512) Cert.LibBlock.hz, View.ld_unit_zero (S := S512x1024) Cert.LibBlock.hz,
    View.ld_unit_zero (S := S1x1024) Cert.LibBlock.hz]
  funext y
  obtain ⟨b, n, rfl⟩ : ∃ (b : Fin 128) (n : Fin 1024), y = ix2 b n := ⟨y 0, y 1, eq_ix2 y⟩
  have e : ((cfg1.win 7).blk t).view.emb (ix2 b n) = ix2 b n := by
    obtain ⟨e0, e1⟩ := (idx_facts1 t).2.2.2.2.2.2.2
    funext x; apply Fin.ext
    match x with
    | ⟨0, _⟩ => show win1_7.index t (0 : Fin 2) * 128 + 1 * b.val = b.val; omega
    | ⟨1, _⟩ => show win1_7.index t (1 : Fin 2) * 1024 + 1 * n.val = n.val; omega
  show Gen.k1_pay1 (iblk1 V c 0 t) (iblk1 V c 1 t) (iblk1 V c 2 t) (iblk1 V c 3 t) (iblk1 V c 4 t) (iblk1 V c 5 t) (iblk1 V c 6 t) (ix2 b n)
    = head V c (((cfg1.win 7).blk t).view.emb (ix2 b n))
  rw [e]
  refine (Payload.head_apply _ _ _ _ _ _ _ b n).trans ?_
  show _ = headAt (V c main_v0) (V c main_arg1) (V c main_arg2) (V c main_arg3) (V c main_arg4) (V c main_call1_v0) (V c main_call1_v1) b n
  unfold headAt
  simp only [blk1_0, blk1_1, blk1_2, blk1_3, blk1_4, blk1_5, blk1_6]

theorem mem_blk1 (t : Fin cfg1.N) (i : S128x1024.Idx) :
    i ∈ ((cfg1.win 7).blk t).view.set ↔ ∀ a : Fin 2, win1_7.index t a * S128x1024.size a ≤ (i a).val ∧ (i a).val < win1_7.index t a * S128x1024.size a + S128x1024.size a := by
  show i ∈ ((View.whole main_call1_v2).slice (win1_7.rect t)).set ↔ _
  rw [View.set_slice_whole, Rect.mem_set_unit]
  exact Iff.rfl

theorem cover1 (i : S128x1024.Idx) : ∃ t : Fin cfg1.N, (cfg1.win 7).flush t = true ∧ i ∈ ((cfg1.win 7).blk t).view.set := by
  have hi0 : (i 0).val < 128 := (i 0).isLt
  have hi1 : (i 1).val < 1024 := (i 1).isLt
  have hN : cfg1.N = 1 := N_1
  have hlt : 0 < cfg1.N := lt_of_lt_of_eq (by omega : 0 < 1) hN.symm
  refine ⟨⟨0, hlt⟩, flush1_7 _, ?_⟩
  rw [mem_blk1]
  obtain ⟨e0, e1⟩ := (idx_facts1 ⟨0, hlt⟩).2.2.2.2.2.2.2
  intro a
  match a with
  | ⟨0, _⟩ =>
    show win1_7.index _ (0 : Fin 2) * 128 ≤ (i 0).val ∧ (i 0).val < win1_7.index _ (0 : Fin 2) * 128 + 128
    rw [e0]; omega
  | ⟨1, _⟩ =>
    show win1_7.index _ (1 : Fin 2) * 1024 ≤ (i 1).val ∧ (i 1).val < win1_7.index _ (1 : Fin 2) * 1024 + 1024
    rw [e1]; omega

/-- The padded scores' array after the head region. -/
theorem final1 (c : Dev nD) : (dat1 V c).arrAt 7 cfg1.N = head V c :=
  (dat1 V c).arrAt_eq_of_cover 7 (head V c) (fun t _ => flushed1_eq V c t) cover1

end Regions

/-! ## The buffers through the five segments -/

variable (m : (ℓ : Loc nD τ sig) → Buf (Elt Ideal) ℓ) (ρ : Dev nD → PrngReg)

abbrev X (c : Dev nD) : S128x2048x7x7.Idx → EReal := m ((c : Thread nD τ).loc main_arg0)
abbrev W1a (c : Dev nD) : S2048x512.Idx → EReal := m ((c : Thread nD τ).loc main_arg1)
abbrev B1 (c : Dev nD) : S1x512.Idx → EReal := m ((c : Thread nD τ).loc main_arg2)
abbrev SC (c : Dev nD) : S1x512.Idx → EReal := m ((c : Thread nD τ).loc main_arg3)
abbrev SH (c : Dev nD) : S1x512.Idx → EReal := m ((c : Thread nD τ).loc main_arg4)
abbrev W2a (c : Dev nD) : S512x1000.Idx → EReal := m ((c : Thread nD τ).loc main_arg5)
abbrev B2 (c : Dev nD) : S1x1000.Idx → EReal := m ((c : Thread nD τ).loc main_arg6)

/-- The scores of the launch's argument arrays. -/
abbrev scores (c : Dev nD) : S128x1000.Idx → EReal :=
  Cert.Spec.G (X m c) (W1a m c) (B1 m c) (SC m c) (SH m c) (W2a m c) (B2 m c)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The reshaped activation the pooling region finds. -/
theorem V1_x3 (c : Dev nD) : (V1 m ρ c main_call0_v0 : S128x2048x49.Idx → EReal)
    = shapeCast S128x2048x49 (X m c) shapeCasts_S128x2048x7x7_S128x2048x49 := by
  dsimp only [V1, W1, hostOps0]; after_results; rfl

theorem x3_apply (c : Dev nD) (b : Fin 128) (ch : Fin 2048) (s : Fin 49) :
    (V1 m ρ c main_call0_v0 : S128x2048x49.Idx → EReal) (ix3 b ch s) = X m c (ix4 b ch (Cert.Spec.row s) (Cert.Spec.col s)) := by
  rw [V1_x3]
  refine shapeCast_apply _ _ (ix3 b ch s) (ix4 b ch (Cert.Spec.row s) (Cert.Spec.col s)) ?_
  rw [Shape.rowMajor_val_four, Shape.rowMajor_val_three]
  show ((b.val * 2048 + ch.val) * 7 + s.val / 7) * 7 + s.val % 7 = (b.val * 2048 + ch.val) * 49 + s.val
  omega

/-- The pooled features the head region finds are the specification's. -/
theorem V3_feat (c : Dev nD) (b : Fin 128) (ch : Fin 2048) :
    (V3 m ρ c main_v0 : S128x2048.Idx → EReal) (ix2 b ch) = Cert.Spec.pooled (X m c) b ch := by
  have h3 : W3 m ρ c (Proc.devRef .tc main_v0) = W2 m ρ c (Proc.devRef .tc main_v0) :=
    StableHlo.after_of_forall_not_mem (b := Proc.devRef .tc main_v0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have h2 : W2 m ρ c (Proc.devRef .tc main_v0) = (dat0 (V1 m ρ) c).arrAt 1 cfg0.N := W2_arr m ρ c 1
  show (W3 m ρ c (Proc.devRef .tc main_v0) : S128x2048.Idx → EReal) (ix2 b ch) = _
  rw [h3, h2, final0]
  show featAt (V1 m ρ c main_call0_v0) b ch = _
  unfold featAt Cert.Spec.pooled
  exact congrArg₂ (· * ·) (Finset.sum_congr rfl fun s _ => x3_apply m ρ c b ch s) rfl

/-- The padded second weight matrix and bias the head region finds. -/
theorem V3_w2p (c : Dev nD) : (V3 m ρ c main_call1_v0 : S512x1024.Idx → EReal)
    = pad S512x1024 ![0, 0] ![0, 24] ![0, 0] (W2 m ρ c (Proc.devRef .tc main_arg5) : S512x1000.Idx → EReal)
        (V3 m ρ c main_call1_call0_v0 : S_.Idx → EReal) pads_S512x1000_S512x1024_000_0240 h_S_ := by
  dsimp only [V3, W3, hostOps1]; after_results; rfl

theorem V3_b2p (c : Dev nD) : (V3 m ρ c main_call1_v1 : S1x1024.Idx → EReal)
    = pad S1x1024 ![0, 0] ![0, 24] ![0, 0] (W2 m ρ c (Proc.devRef .tc main_arg6) : S1x1000.Idx → EReal)
        (V3 m ρ c main_call1_call1_v0 : S_.Idx → EReal) pads_S1x1000_S1x1024_000_0240 h_S_ := by
  dsimp only [V3, W3, hostOps1]; after_results; rfl

/-- Column `n` of the 1000, among the 1024. -/
abbrev wide (n : Fin 1000) : Fin 1024 := ⟨n.val, by have := n.isLt; omega⟩

theorem w2p_apply (c : Dev nD) (d : Fin 512) (n : Fin 1000) :
    (V3 m ρ c main_call1_v0 : S512x1024.Idx → EReal) (ix2 d (wide n)) = W2a m c (ix2 d n) := by
  rw [V3_w2p]
  refine (pad_apply_of_inside _ _ _ _ _ _ _ (ix2 d (wide n)) (ix2 d n) fun a => ?_).trans (congrFun (W2_main_arg5 m ρ c) _)
  match a with
  | ⟨0, _⟩ => show d.val = 0 + d.val * (0 + 1); omega
  | ⟨1, _⟩ => show n.val = 0 + n.val * (0 + 1); omega

theorem b2p_apply (c : Dev nD) (n : Fin 1000) :
    (V3 m ρ c main_call1_v1 : S1x1024.Idx → EReal) (ix2 0 (wide n)) = B2 m c (ix2 0 n) := by
  rw [V3_b2p]
  refine (pad_apply_of_inside _ _ _ _ _ _ _ (ix2 0 (wide n)) (ix2 0 n) fun a => ?_).trans (congrFun (W2_main_arg6 m ρ c) _)
  match a with
  | ⟨0, _⟩ => show (0 : Fin 1).val = 0 + (0 : Fin 1).val * (0 + 1); omega
  | ⟨1, _⟩ => show n.val = 0 + n.val * (0 + 1); omega

/-- The result buffer after the slice. -/
theorem W5_res (c : Dev nD) : (W5 m ρ c (Proc.devRef .tc main_v1) : S128x1000.Idx → EReal)
    = extractStridedSlice S128x1000 ![0, 0] (W4 m ρ c (Proc.devRef .tc main_call1_v2) : S128x1024.Idx → EReal) slices_S128x1024_S128x1000_0_0 := by
  dsimp only [W5, hostOps2]; after_results; rfl

/-- The reference's result is the scores. -/
theorem result_eq (c : Dev nD) : (W5 m ρ c (Proc.devRef .tc main_v1) : S128x1000.Idx → EReal) = scores m c := by
  funext y
  obtain ⟨b, n, rfl⟩ : ∃ (b : Fin 128) (n : Fin 1000), y = ix2 b n := ⟨y 0, y 1, eq_ix2 y⟩
  rw [W5_res]
  refine (slice2_axis1_apply 0 _ _ b n (wide n) (by show n.val = 0 + n.val; omega)).trans ?_
  have h4 : W4 m ρ c (Proc.devRef .tc main_call1_v2) = (dat1 (V3 m ρ) c).arrAt 7 cfg1.N := W4_arr m ρ c 7
  rw [h4, final1]
  refine Eq.trans ?_ (Cert.Spec.G_apply (X m c) (W1a m c) (B1 m c) (SC m c) (SH m c) (W2a m c) (B2 m c) b n).symm
  show headAt (V3 m ρ c main_v0) (V3 m ρ c main_arg1) (V3 m ρ c main_arg2) (V3 m ρ c main_arg3) (V3 m ρ c main_arg4)
    (V3 m ρ c main_call1_v0) (V3 m ρ c main_call1_v1) b (wide n) = _
  unfold headAt Cert.Spec.hidden
  refine congrArg₂ (· + ·) (Finset.sum_congr rfl fun d _ => ?_) (b2p_apply m ρ c n)
  refine congrArg₂ (· * ·) ?_ (w2p_apply m ρ c d n)
  exact (congrArg₂ max (congrArg₂ (· + ·) (congrArg₂ (· * ·) (congrArg₂ (· + ·)
    (Finset.sum_congr rfl fun ch _ => congrArg₂ (· * ·) (V3_feat m ρ c b ch) (congrFun (W3_main_arg1 m ρ c) _))
    (congrFun (W3_main_arg2 m ρ c) _)) (congrFun (W3_main_arg3 m ρ c) _)) (congrFun (W3_main_arg4 m ρ c) _)) rfl)

/-- The run: the reference's result ends at the scores of the launch's arguments, the arguments unchanged. -/
theorem run : θ_run defs (onTc (τ := τ) (main (F := Ideal))) ⟨m, fun _ => 0, ρ⟩ (fun r => ∀ c : Dev nD,
      r.2.mem ((c.tc : Thread nD τ).loc main_v1) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (RefRun.run_result m ρ)

end Cert.ReferenceIdeal.RefValue

end
-- ==== Proof.lean ====
/-
  The fused pool / linear / scale-shift / rectifier / classifier kernel against its two-kernel reference, on the
  extended reals.

  Both programs compute, at batch row `b` and class `n`, the scores
    `G b n = (∑_d max (((∑_c pooled b c · w1[c, d]) + b1[d]) · s[d] + t[d]) 0 · w2[d, n]) + b2[n]`,
    `pooled b c = (∑ₛ x[b, c, s / 7, s % 7]) · κ`, with `κ` the single-precision constant nearest 1/49 (the same
  word in both programs).  The kernel reads the activation transposed so that the 49 positions are the leading axis,
  contracts the 2048 channels in four slices of 512 added left to right, and computes the classifier transposed; the
  reference pools in one kernel and runs the head in another, against the second weight matrix and bias padded to 1024
  columns, and cuts the scores back to 1000.  The two differ only by the order of a sum and of a product, so the
  precondition is never opened.

  The kernel's pallas_call hands one array to several windows (the activation to four, the first weight matrix to
  four), so its frame deals each of those buffers in quarters among its windows (the shared-array frame run); the
  same text is read at the bit-level instance for the printed kernel and at the ideal instance for its idealization.
  The idealization rewrote nothing, so it preserves the kernel trivially.
-/
import proofs.«179224_g2000702530078706_pallasbulk_22_26_alg».proof.Defs
import proofs.«179224_g2000702530078706_pallasbulk_22_26_alg».proof.Proof.Gen.Kernel
import proofs.«179224_g2000702530078706_pallasbulk_22_26_alg».proof.Proof.Gen.KernelIdeal
import proofs.«179224_g2000702530078706_pallasbulk_22_26_alg».proof.Proof.Gen.ReferenceIdeal
import proofs.«179224_g2000702530078706_pallasbulk_22_26_alg».proof.Proof.Gen.Pre_finite_inputs
import proofs.«179224_g2000702530078706_pallasbulk_22_26_alg».proof.Proof.KernelRun
import proofs.«179224_g2000702530078706_pallasbulk_22_26_alg».proof.Proof.KernelIdealValue
import proofs.«179224_g2000702530078706_pallasbulk_22_26_alg».proof.Proof.ReferenceValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Frame.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.RefRun.frame m ρ

/-- The idealization rewrote no operation. -/
theorem preserves : Cert.preserves_Kernel_KernelIdeal := trivial

/-- From memories agreeing on the arguments both idealized programs end with the scores of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.scores m c, Cert.KernelIdeal.Value.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  have e0 : Cert.ReferenceIdeal.RefValue.X m' c = Cert.KernelIdeal.Value.X m c := h0
  have e1 : Cert.ReferenceIdeal.RefValue.W1a m' c = Cert.KernelIdeal.Value.W1 m c := h1
  have e2 : Cert.ReferenceIdeal.RefValue.B1 m' c = Cert.KernelIdeal.Value.B1 m c := h2
  have e3 : Cert.ReferenceIdeal.RefValue.SC m' c = Cert.KernelIdeal.Value.SC m c := h3
  have e4 : Cert.ReferenceIdeal.RefValue.SH m' c = Cert.KernelIdeal.Value.SH m c := h4
  have e5 : Cert.ReferenceIdeal.RefValue.W2a m' c = Cert.KernelIdeal.Value.W2 m c := h5
  have e6 : Cert.ReferenceIdeal.RefValue.B2 m' c = Cert.KernelIdeal.Value.B2 m c := h6
  show Cert.Spec.G (Cert.ReferenceIdeal.RefValue.X m' c) (Cert.ReferenceIdeal.RefValue.W1a m' c) (Cert.ReferenceIdeal.RefValue.B1 m' c)
      (Cert.ReferenceIdeal.RefValue.SC m' c) (Cert.ReferenceIdeal.RefValue.SH m' c) (Cert.ReferenceIdeal.RefValue.W2a m' c)
      (Cert.ReferenceIdeal.RefValue.B2 m' c)
    = Cert.Spec.G (Cert.KernelIdeal.Value.X m c) (Cert.KernelIdeal.Value.W1 m c) (Cert.KernelIdeal.Value.B1 m c)
      (Cert.KernelIdeal.Value.SC m c) (Cert.KernelIdeal.Value.SH m c) (Cert.KernelIdeal.Value.W2 m c) (Cert.KernelIdeal.Value.B2 m c)
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
